-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x6 : Shape := ⟨2, ![500000, 6]⟩
abbrev S129 : Shape := ⟨1, ![129]⟩
abbrev S_ : Shape := ⟨0, ![]⟩
abbrev S1 : Shape := ⟨1, ![1]⟩

class Facts : Prop where
  bcast_S_S500000x6 : S_.BroadcastsInDim S500000x6 (![] : Fin 0 → Fin S500000x6.rank)
  reducesTo_S500000x6_S_d0_1 : S500000x6.ReducesTo [0, 1] S_
  h_S_ : 0 < S_.numel
  bcast_S_S129 : S_.BroadcastsInDim S129 (![] : Fin 0 → Fin S129.rank)
  reducesTo_S129_S_d0 : S129.ReducesTo [0] S_
  slices_S129_S1_1 : S129.Slices ![1] S1
  shapeCasts_S1_S_ : S1.ShapeCasts S_
  slices_S129_S1_0 : S129.Slices ![0] S1

variable [Facts]

def fn_part1 {F : FTy → Type} [FloatOps F] (main_arg2 : FVec F S129 .f32) (main_v13 : IVec S_ 1) (main_v15 : FVec F S_ .f32) (main_v17 : FVec F S_ .f32) : IVec S_ 1 :=
  let main_v18 : IVec S_ 1 := cmpf .une main_v15 main_v17
  let main_v19 : IVec S_ 1 := andi main_v13 main_v18
  let main_v20 : FVec F S1 .f32 := (extractStridedSlice S1 ![1] · slices_S129_S1_1) main_arg2
  let main_v21 : FVec F S_ .f32 := shapeCast S_ main_v20 shapeCasts_S1_S_
  let main_v22 : FVec F S1 .f32 := (extractStridedSlice S1 ![0] · slices_S129_S1_0) main_arg2
  let main_v23 : FVec F S_ .f32 := shapeCast S_ main_v22 shapeCasts_S1_S_
  let main_v24 : IVec S_ 1 := cmpf .une main_v21 main_v23
  let main_v25 : IVec S_ 1 := andi main_v19 main_v24
  main_v25

def fn {F : FTy → Type} [FloatOps F] (main_arg0 : FVec F S500000x6 .f32) (main_arg1 : FVec F S129 .f32) (main_arg2 : FVec F S129 .f32) : IVec S_ 1 :=
  let main_v0 : FVec F S500000x6 .f32 := Host.absf main_arg0
  let main_cst : FVec F S_ .f32 := constant S_ .f32 0x7F800000#32
  let main_v1 : FVec F S500000x6 .f32 := broadcastInDim S500000x6 ![] bcast_S_S500000x6 main_cst
  let main_v2 : IVec S500000x6 1 := cmpf .olt main_v0 main_v1
  let main_c : IVec S_ 1 := constantI S_ 1 1#1
  let main_v3 : IVec S_ 1 := (fun x v => Host.reduce IntOp.andi x v reducesTo_S500000x6_S_d0_1 h_S_) main_v2 main_c
  let main_v4 : FVec F S129 .f32 := Host.absf main_arg1
  let main_cst_0 : FVec F S_ .f32 := constant S_ .f32 0x7F800000#32
  let main_v5 : FVec F S129 .f32 := broadcastInDim S129 ![] bcast_S_S129 main_cst_0
  let main_v6 : IVec S129 1 := cmpf .olt main_v4 main_v5
  let main_c_1 : IVec S_ 1 := constantI S_ 1 1#1
  let main_v7 : IVec S_ 1 := (fun x v => Host.reduce IntOp.andi x v reducesTo_S129_S_d0 h_S_) main_v6 main_c_1
  let main_v8 : IVec S_ 1 := andi main_v3 main_v7
  let main_v9 : FVec F S129 .f32 := Host.absf main_arg2
  let main_cst_2 : FVec F S_ .f32 := constant S_ .f32 0x7F800000#32
  let main_v10 : FVec F S129 .f32 := broadcastInDim S129 ![] bcast_S_S129 main_cst_2
  let main_v11 : IVec S129 1 := cmpf .olt main_v9 main_v10
  let main_c_3 : IVec S_ 1 := constantI S_ 1 1#1
  let main_v12 : IVec S_ 1 := (fun x v => Host.reduce IntOp.andi x v reducesTo_S129_S_d0 h_S_) main_v11 main_c_3
  let main_v13 : IVec S_ 1 := andi main_v8 main_v12
  let main_v14 : FVec F S1 .f32 := (extractStridedSlice S1 ![1] · slices_S129_S1_1) main_arg1
  let main_v15 : FVec F S_ .f32 := shapeCast S_ main_v14 shapeCasts_S1_S_
  let main_v16 : FVec F S1 .f32 := (extractStridedSlice S1 ![0] · slices_S129_S1_0) main_arg1
  let main_v17 : FVec F S_ .f32 := shapeCast S_ main_v16 shapeCasts_S1_S_
  fn_part1 (F := F) main_arg2 main_v13 main_v15 main_v17
-- ==== Kernel.lean ====
abbrev S500000x6 : Shape := ⟨2, ![500000, 6]⟩
abbrev S129 : Shape := ⟨1, ![129]⟩
abbrev S128 : Shape := ⟨1, ![128]⟩
abbrev S_ : Shape := ⟨0, ![]⟩
abbrev S1 : Shape := ⟨1, ![1]⟩
abbrev S500000x1 : Shape := ⟨2, ![500000, 1]⟩
abbrev S500000 : Shape := ⟨1, ![500000]⟩
abbrev S1x128 : Shape := ⟨2, ![1, 128]⟩
abbrev S500000x2 : Shape := ⟨2, ![500000, 2]⟩
abbrev S2x250000x2 : Shape := ⟨3, ![2, 250000, 2]⟩
abbrev S2x128x128 : Shape := ⟨3, ![2, 128, 128]⟩
abbrev S1x5000x2 : Shape := ⟨3, ![1, 5000, 2]⟩
abbrev S1x128x128 : Shape := ⟨3, ![1, 128, 128]⟩
abbrev S128x128 : Shape := ⟨2, ![128, 128]⟩
abbrev S1x5000x1 : Shape := ⟨3, ![1, 5000, 1]⟩
abbrev S5000x1 : Shape := ⟨2, ![5000, 1]⟩
abbrev S5000x128 : Shape := ⟨2, ![5000, 128]⟩

abbrev nBuf : Space → Nat
  | .hbm => 56
  | .vmem => 7
  | .smem => 0
  | _ => 0

abbrev bufTy : (tb : Table) → Fin (tcTables nBuf tb) → BufTy
  | .hbm, ⟨0, _⟩ => ⟨S500000x6, .f32⟩
  | .hbm, ⟨1, _⟩ => ⟨S129, .f32⟩
  | .hbm, ⟨2, _⟩ => ⟨S129, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S500000x1, .f32⟩
  | .hbm, ⟨30, _⟩ => ⟨S500000, .f32⟩
  | .hbm, ⟨31, _⟩ => ⟨S500000, .f32⟩
  | .hbm, ⟨32, _⟩ => ⟨S500000, .f32⟩
  | .hbm, ⟨33, _⟩ => ⟨S500000x1, .f32⟩
  | .hbm, ⟨34, _⟩ => ⟨S500000, .f32⟩
  | .hbm, ⟨35, _⟩ => ⟨S500000, .f32⟩
  | .hbm, ⟨36, _⟩ => ⟨S500000, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S500000x1, .f32⟩
  | .hbm, ⟨44, _⟩ => ⟨S500000x1, .f32⟩
  | .hbm, ⟨45, _⟩ => ⟨S500000x2, .f32⟩
  | .hbm, ⟨46, _⟩ => ⟨S2x250000x2, .f32⟩
  | .hbm, ⟨47, _⟩ => ⟨S2x128x128, .f32⟩
  | .hbm, ⟨48, _⟩ => ⟨S_, .f32⟩
  | .hbm, ⟨49, _⟩ => ⟨S128x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S128x128, .f32⟩
  | .hbm, ⟨55, _⟩ => ⟨S128x128, .f32⟩
  | .local _ .vmem, ⟨0, _⟩ => ⟨S1x5000x2, .f32⟩
  | .local _ .vmem, ⟨1, _⟩ => ⟨S1x5000x2, .f32⟩
  | .local _ .vmem, ⟨2, _⟩ => ⟨S1x128, .f32⟩
  | .local _ .vmem, ⟨3, _⟩ => ⟨S1x128, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | _, _ => ⟨S500000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v33 : BitVec 1 := Scalar.cmpi .eq arg1 c49_i32
  let v34 : BitVec 32 := Scalar.extui v33
  let c0_i32_15 : BitVec 32 := 0#32
  let v35 : BitVec 1 := Scalar.cmpi .ne v34 c0_i32_15
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S129_S128_0 : S129.Slices ![0] S128
  slices_S129_S128_1 : S129.Slices ![1] S128
  bcast_S_S128 : S_.BroadcastsInDim S128 (![] : Fin 0 → Fin S128.rank)
  slices_S129_S1_1 : S129.Slices ![1] S1
  shapeCasts_S1_S_ : S1.ShapeCasts S_
  slices_S129_S1_0 : S129.Slices ![0] S1
  slices_S500000x6_S500000x1_0_0 : S500000x6.Slices ![0, 0] S500000x1
  shapeCasts_S500000x1_S500000 : S500000x1.ShapeCasts S500000
  bcast_S_S500000 : S_.BroadcastsInDim S500000 (![] : Fin 0 → Fin S500000.rank)
  slices_S500000x6_S500000x1_0_1 : S500000x6.Slices ![0, 1] S500000x1
  shapeCasts_S128_S1x128 : S128.ShapeCasts S1x128
  bcast_S500000_S500000x1_0 : S500000.BroadcastsInDim S500000x1 (![0] : Fin 1 → Fin S500000x1.rank)
  concatenates_S500000x1_S500000x1_S500000x2_d1 : Shape.Concatenates [S500000x1, S500000x1] S500000x2 1
  shapeCasts_S500000x2_S2x250000x2 : S500000x2.ShapeCasts S2x250000x2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x5000x2_S1x5000x1_0_0_0 : ∀ a, (![0, 0, 0] : Fin 3 → Nat) a + S1x5000x1.size a ≤ S1x5000x2.size a
  h_S1x5000x1 : 0 < S1x5000x1.numel
  shapeCasts_S1x5000x1_S5000x1 : S1x5000x1.ShapeCasts S5000x1
  inb_S1x5000x2_S1x5000x1_0_0_1 : ∀ a, (![0, 0, 1] : Fin 3 → Nat) a + S1x5000x1.size a ≤ S1x5000x2.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  reducesTo_S2x128x128_S128x128_d0 : S2x128x128.ReducesTo [0] S128x128
  h_S_ : 0 < S_.numel
  reducesTo_S128x128_S_d0_1 : S128x128.ReducesTo [0, 1] S_
  bcast_S_S128x128 : S_.BroadcastsInDim S128x128 (![] : Fin 0 → Fin S128x128.rank)
  dot_S5000x128_S5000x128_S128x128_0_0_1_1_n_n_wf : DotDims.WF S5000x128 S5000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x2.size a ≤ S2x250000x2.size a
  hwx0_0 : ∀ i : grid0.Coords, EltTy.bits .f32 = 32 ∨ (Rect.block (s := S2x250000x2) S1x5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)

variable [Facts₀]

def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf

abbrev win0_0 : Pipeline.Window sig grid0 :=
  Pipeline.Window.ofSpec (Memref.whole main_v39) S1x5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S500000x6 : Shape := ⟨2, ![500000, 6]⟩
abbrev S129 : Shape := ⟨1, ![129]⟩
abbrev S128 : Shape := ⟨1, ![128]⟩
abbrev S_ : Shape := ⟨0, ![]⟩
abbrev S1 : Shape := ⟨1, ![1]⟩
abbrev S500000x1 : Shape := ⟨2, ![500000, 1]⟩
abbrev S500000 : Shape := ⟨1, ![500000]⟩
abbrev S1x128 : Shape := ⟨2, ![1, 128]⟩
abbrev S500000x128 : Shape := ⟨2, ![500000, 128]⟩
abbrev S128x128 : Shape := ⟨2, ![128, 128]⟩

abbrev nBuf : Space → Nat
  | .hbm => 60
  | .vmem => 0
  | .smem => 0
  | _ => 0

abbrev bufTy : (tb : Table) → Fin (tcTables nBuf tb) → BufTy
  | .hbm, ⟨0, _⟩ => ⟨S500000x6, .f32⟩
  | .hbm, ⟨1, _⟩ => ⟨S129, .f32⟩
  | .hbm, ⟨2, _⟩ => ⟨S129, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S500000x1, .f32⟩
  | .hbm, ⟨26, _⟩ => ⟨S500000, .f32⟩
  | .hbm, ⟨27, _⟩ => ⟨S500000x1, .f32⟩
  | .hbm, ⟨28, _⟩ => ⟨S1x128, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S500000x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S500000x1, .f32⟩
  | .hbm, ⟨40, _⟩ => ⟨S500000, .f32⟩
  | .hbm, ⟨41, _⟩ => ⟨S500000x1, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S500000x128, .f32⟩
  | .hbm, ⟨46, _⟩ => ⟨S500000x128, .f32⟩
  | .hbm, ⟨47, _⟩ => ⟨S500000x128, .f32⟩
  | .hbm, ⟨48, _⟩ => ⟨S500000x128, .f32⟩
  | .hbm, ⟨49, _⟩ => ⟨S_, .f32⟩
  | .hbm, ⟨50, _⟩ => ⟨S500000x128, .f32⟩
  | .hbm, ⟨51, _⟩ => ⟨S500000x128, .f32⟩
  | .hbm, ⟨52, _⟩ => ⟨S500000x128, .f32⟩
  | .hbm, ⟨53, _⟩ => ⟨S128x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S128x128, .f32⟩
  | .hbm, ⟨59, _⟩ => ⟨S128x128, .f32⟩
  | _, _ => ⟨S500000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_3 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩

abbrev nD : Nat := 1
abbrev τ : Topo := Topo.v7x

variable {F : FTy → Type} [FloatOps F]

class Facts₀ : Prop where
  slices_S129_S128_0 : S129.Slices ![0] S128
  slices_S129_S128_1 : S129.Slices ![1] S128
  bcast_S_S128 : S_.BroadcastsInDim S128 (![] : Fin 0 → Fin S128.rank)
  slices_S129_S1_1 : S129.Slices ![1] S1
  shapeCasts_S1_S_ : S1.ShapeCasts S_
  slices_S129_S1_0 : S129.Slices ![0] S1
  slices_S500000x6_S500000x1_0_0 : S500000x6.Slices ![0, 0] S500000x1
  shapeCasts_S500000x1_S500000 : S500000x1.ShapeCasts S500000
  bcast_S500000_S500000x1_0 : S500000.BroadcastsInDim S500000x1 (![0] : Fin 1 → Fin S500000x1.rank)
  bcast_S128_S1x128_1 : S128.BroadcastsInDim S1x128 (![1] : Fin 1 → Fin S1x128.rank)
  bcast_S500000x1_S500000x128_0_1 : S500000x1.BroadcastsInDim S500000x128 (![0, 1] : Fin 2 → Fin S500000x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  slices_S500000x6_S500000x1_0_1 : S500000x6.Slices ![0, 1] S500000x1
  reducesTo_S128x128_S_d0_1 : S128x128.ReducesTo [0, 1] S_
  h_S_ : 0 < S_.numel
  bcast_S_S128x128 : S_.BroadcastsInDim S128x128 (![] : Fin 0 → Fin S128x128.rank)
  dot_S500000x128_S500000x128_S128x128_0_0_1_1_n_n_wf : DotDims.WF S500000x128 S500000x128 S128x128 [0] [0] [1] [1] [] []

variable [Facts₀]

def dot_S500000x128_S500000x128_S128x128_0_0_1_1_n_n : DotDims S500000x128 S500000x128 S128x128 where
  lhsContracting := [0]
  rhsContracting := [0]
  lhsNonContracting := [1]
  rhsNonContracting := [1]
  lhsBatch := []
  rhsBatch := []
  wf := dot_S500000x128_S500000x128_S128x128_0_0_1_1_n_n_wf

class Facts : Prop extends Facts₀ where

variable [Facts]
-- ==== Proof.Spec.lean ====
/-
  The joint Gaussian-kernel histogram both programs compute, stated once as plain functions of the three argument
  arrays over the extended reals.

  A point `n` contributes to bin `(i, j)` the product of two weights, one per axis. With `c` the centre of a bin
  (half the sum of its two edges) and `b` the width of the first bin (second edge minus first edge), the weight of a
  coordinate `v` is `exp (-1/2 · ((v - c) / b)²)`. One program divides the difference by `b` (`weightQ`, the
  quotient form); the other multiplies `v` and `c` separately by `1 / b` and subtracts (`weightS`, the pre-scaled
  form). For finite `v`, `c` and a finite NONZERO `b` the two are the same real number: `v·b⁻¹ - c·b⁻¹ = (v - c)·b⁻¹`.
  For `b = 0` they differ (`0 / 0` against `0·∞ - 0·∞`), which is why the widths are required to be nonzero.

  `histQ` / `histS` are the unnormalised histograms: the sum over all 500000 points of the product of the two weights.
-/
import Idealize.ShloMosaic.PureOps.Ideal
import Idealize.ShloMosaic.Lib.ValueIdx

noncomputable section

namespace Cert.Hist

open Idealize.ShloMosaic Idealize.ShloMosaic.ValueIdx

/-- The points: 500000 rows of 6 coordinates, of which columns 0 and 1 are used. -/
abbrev SPts : Shape := ⟨2, ![500000, 6]⟩
/-- The bin edges along one axis: 129 of them, for 128 bins. -/
abbrev SEdges : Shape := ⟨1, ![129]⟩

/-- The float words the programs spell, as extended reals. -/
abbrev wHalf : EReal := Ideal.ofBits .f32 0x3F000000#32
abbrev wNegHalf : EReal := Ideal.ofBits .f32 0xBF000000#32
abbrev wOne : EReal := Ideal.ofBits .f32 0x3F800000#32
abbrev wZero : EReal := Ideal.ofBits .f32 0x00000000#32

/-- `0.0` denotes `0`. -/
theorem wZero_eq : wZero = 0 := by
  simp [wZero, Ideal.ofBits, Ideal.ieee]

/-- `1.0` denotes `1`. -/
theorem wOne_eq : wOne = 1 := by
  simp [wOne, Ideal.ofBits, Ideal.ieee, -EReal.coe_mul]; norm_num

/-- `0.5` denotes the real `1/2`. -/
theorem wHalf_eq : wHalf = ((1 / 2 : ℝ) : EReal) := by
  simp [wHalf, Ideal.ofBits, Ideal.ieee, -EReal.coe_mul]; norm_num

/-- `-0.5` denotes the real `-1/2`. -/
theorem wNegHalf_eq : wNegHalf = ((-(1 / 2) : ℝ) : EReal) := by
  simp [wNegHalf, Ideal.ofBits, Ideal.ieee, -EReal.coe_mul]; norm_num

/-- Bin `i`'s lower edge is edge `i`, its upper edge is edge `i + 1`. -/
def lowerEdge (i : Fin 128) : Fin 129 := ⟨i.val, by have := i.isLt; omega⟩
def upperEdge (i : Fin 128) : Fin 129 := ⟨1 + i.val, by have := i.isLt; omega⟩

/-- The centre of bin `i`: half the sum of its two edges. -/
def centre (e : SEdges.Idx → EReal) (i : Fin 128) : EReal :=
  wHalf * (e (ix1 (lowerEdge i)) + e (ix1 (upperEdge i)))

/-- The width of the first bin: the second edge minus the first. -/
def width (e : SEdges.Idx → EReal) : EReal :=
  e (ix1 (⟨1, by decide⟩ : Fin 129)) - e (ix1 (⟨0, by decide⟩ : Fin 129))

/-- The weight in quotient form: `exp (-1/2 · ((v - c) / b) · ((v - c) / b))`. -/
def weightQ (v c b : EReal) : EReal :=
  Ideal.exp (wNegHalf * (Ideal.div (v - c) b * Ideal.div (v - c) b))

/-- The weight in pre-scaled form: with `r = 1 / b`, `exp ((-1/2 · (v·r - c·r)) · (v·r - c·r))`. -/
def weightS (v c b : EReal) : EReal :=
  Ideal.exp ((wNegHalf * (v * Ideal.div wOne b - c * Ideal.div wOne b)) * (v * Ideal.div wOne b - c * Ideal.div wOne b))

/-- The unnormalised histogram, quotient form: bin `(i, j)` sums over all points the product of the weight of
    coordinate 0 against x-bin `i` and of coordinate 1 against y-bin `j`. -/
def histQ (x : SPts.Idx → EReal) (ex ey : SEdges.Idx → EReal) (i j : Fin 128) : EReal :=
  ∑ n : Fin 500000, weightQ (x (ix2 n (0 : Fin 6))) (centre ex i) (width ex)
    * weightQ (x (ix2 n (1 : Fin 6))) (centre ey j) (width ey)

/-- The same with the pre-scaled weights. -/
def histS (x : SPts.Idx → EReal) (ex ey : SEdges.Idx → EReal) (i j : Fin 128) : EReal :=
  ∑ n : Fin 500000, weightS (x (ix2 n (0 : Fin 6))) (centre ex i) (width ex)
    * weightS (x (ix2 n (1 : Fin 6))) (centre ey j) (width ey)

end Cert.Hist

end
-- ==== Proof.PreFacts.lean ====
/-
  What the precondition says about the three argument arrays: every element is a real number (its absolute value is
  below +∞), and on each axis the second edge differs from the first, so the first bin's width is a nonzero real.
-/
import proofs.«143320_j28252294873506_1_alg».proof.Proof.Spec
import proofs.«143320_j28252294873506_1_alg».proof.Pre_finite_inputs
import Idealize.ShloMosaic.Lib.ReduceAll
import Idealize.ShloMosaic.Lib.ValueIdx
import Idealize.ShloMosaic.Lib.Pipeline.Value

noncomputable section

namespace Cert.Hist.Pre

open Idealize.ShloMosaic Idealize.ShloMosaic.ValueIdx Cert.Hist Cert.Pre_finite_inputs

/-- The scalar shape has one index. -/
instance : Subsingleton S_.Idx := ⟨fun a b => funext fun d => d.elim0⟩

/-- A conjunction of two bits is set exactly when both are. -/
theorem and1 : ∀ a b : BitVec 1, IntOp.andi a b = 1#1 ↔ a = 1#1 ∧ b = 1#1 := by decide

/-- A boolean's bit is set exactly when the boolean is true. -/
theorem ofBool_eq_one (b : Bool) : BitVec.ofBool b = 1#1 ↔ b = true := by cases b <;> decide

/-- The word `0x7F800000` denotes `+∞`. -/
theorem inf_eq : Ideal.ofBits .f32 0x7F800000#32 = (⊤ : EReal) := by
  simp [Ideal.ofBits, Ideal.ieee]

/-- An extended real whose absolute value is below `+∞` is a real number. -/
theorem real_of_abs_lt (v : EReal) (h : Ideal.cmp .olt (max v (-v)) (Ideal.ofBits .f32 0x7F800000#32) = 1#1) :
    ∃ r : ℝ, v = (r : EReal) := by
  rw [inf_eq] at h
  unfold Ideal.cmp at h
  rw [ofBool_eq_one] at h
  simp only [decide_eq_true_eq] at h
  induction v using EReal.rec with
  | bot => simp at h
  | coe r => exact ⟨r, rfl⟩
  | top => simp at h

/-- Two extended reals whose not-equal comparison is set are different. -/
theorem ne_of_une (a b : EReal) (h : Ideal.cmp .une a b = 1#1) : a ≠ b := by
  unfold Ideal.cmp at h
  rw [ofBool_eq_one] at h
  simpa using h

/-- The difference of two different reals is not zero. -/
theorem sub_ne_zero_of_real (a b : EReal) (ha : ∃ r : ℝ, a = (r : EReal)) (hb : ∃ r : ℝ, b = (r : EReal)) (hne : a ≠ b) :
    a - b ≠ 0 := by
  obtain ⟨r1, rfl⟩ := ha
  obtain ⟨r0, rfl⟩ := hb
  rw [← EReal.coe_sub]
  intro hc
  have h0 : r1 - r0 = 0 := by exact_mod_cast hc
  exact hne (by rw [sub_eq_zero.mp h0])

/-- The one element of a one-element vector and the one element of a scalar sit at the same row-major position. -/
theorem pos_one_scalar (u : S_.Idx) :
    (S1.rowMajor (ix1 (0 : Fin 1))).val = (S_.rowMajor u).val := by
  rw [Shape.rowMajor_val_one]
  exact (Shape.rowMajorPi_zero _ u).symm

/-- The scalar `e[k:k+1]` reshaped to rank 0 is element `k` of `e`. -/
theorem scalar_at (e : FVec Ideal S129 .f32) (off : Fin 1 → Nat) (hs : S129.Slices off S1) (hc : S1.ShapeCasts S_)
    (k : Fin 129) (hk : k.val = off 0) (u : S_.Idx) :
    shapeCast S_ (extractStridedSlice S1 off e hs) hc u = e (ix1 k) := by
  rw [shapeCast_apply (extractStridedSlice S1 off e hs) hc u (ix1 (0 : Fin 1)) (pos_one_scalar u)]
  exact extractStridedSlice_apply off e hs (ix1 (0 : Fin 1)) (ix1 k) (fun a => by
    match a with
    | ⟨0, _⟩ => show k.val = off 0 + 0; omega)

/-- THE PRECONDITION DECODED: all three arrays hold reals, and both first-bin widths are nonzero. -/
theorem of_pre [Cert.Pre_finite_inputs.Facts] (x : FVec Ideal Cert.Pre_finite_inputs.S500000x6 .f32)
    (ex ey : FVec Ideal Cert.Pre_finite_inputs.S129 .f32)
    (h : Cert.Pre_finite_inputs.fn (F := Ideal) x ex ey = fun _ => 1#1) :
    (∀ a, ∃ r : ℝ, x a = (r : EReal)) ∧ (∀ a, ∃ r : ℝ, ex a = (r : EReal)) ∧ (∀ a, ∃ r : ℝ, ey a = (r : EReal))
      ∧ Cert.Hist.width ex ≠ 0 ∧ Cert.Hist.width ey ≠ 0 := by
  have e := congrFun h ix0
  dsimp only [Cert.Pre_finite_inputs.fn, Cert.Pre_finite_inputs.fn_part1, andi] at e
  rw [and1, and1, and1, and1] at e
  obtain ⟨⟨⟨⟨hx, hex⟩, hey⟩, hwx⟩, hwy⟩ := e
  have rx : ∀ a, ∃ r : ℝ, x a = (r : EReal) := fun a =>
    real_of_abs_lt (x a) (Host.reduce_andi_all _ _ _ _ ix0 hx a)
  have rex : ∀ a, ∃ r : ℝ, ex a = (r : EReal) := fun a =>
    real_of_abs_lt (ex a) (Host.reduce_andi_all _ _ _ _ ix0 hex a)
  have rey : ∀ a, ∃ r : ℝ, ey a = (r : EReal) := fun a =>
    real_of_abs_lt (ey a) (Host.reduce_andi_all _ _ _ _ ix0 hey a)
  refine ⟨rx, rex, rey, ?_, ?_⟩
  · refine sub_ne_zero_of_real _ _ (rex _) (rex _) ?_
    have := ne_of_une _ _ hwx
    rwa [scalar_at ex _ _ _ (⟨1, by decide⟩ : Fin 129) rfl, scalar_at ex _ _ _ (⟨0, by decide⟩ : Fin 129) rfl] at this
  · refine sub_ne_zero_of_real _ _ (rey _) (rey _) ?_
    have := ne_of_une _ _ hwy
    rwa [scalar_at ey _ _ _ (⟨1, by decide⟩ : Fin 129) rfl, scalar_at ey _ _ _ (⟨0, by decide⟩ : Fin 129) rfl] at this

end Cert.Hist.Pre

end
-- ==== Proof.Pieces.lean ====
/-
  What each control case of the body leaves behind, as values.

  The body keeps a 128×128 accumulator in a scratch buffer. At the first step of a shard it stores the zero matrix
  there; at every step it loads columns 0 and 1 of its 5000-point block, the two rows of scaled bin centres and the
  accumulator, and stores back the accumulator plus the block's 128×128 product matrix; at the last step of a shard
  it also copies the accumulator to the output block. So, writing `step` for "accumulator plus the block's product":
  the first step leaves `step` of the zero matrix, every other step leaves `step` of what the step before left, and
  the last step's output block is that same matrix with a leading unit axis.
-/
import proofs.«143320_j28252294873506_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Column 0 and column 1 of a block of points, as the body loads them. -/
abbrev col0 (x0 : Vec F S1x5000x2 .f32) : Vec F S1x5000x1 .f32 :=
  View.ld x0 (Rect.unit (s := S1x5000x2) ![0, 0, 0] S1x5000x1.size inb_S1x5000x2_S1x5000x1_0_0_0)
abbrev col1 (x0 : Vec F S1x5000x2 .f32) : Vec F S1x5000x1 .f32 :=
  View.ld x0 (Rect.unit (s := S1x5000x2) ![0, 0, 1] S1x5000x1.size inb_S1x5000x2_S1x5000x1_0_0_1)

/-- One step: the accumulator `acc` plus the product matrix of the block `x0` against the centre rows `x1`, `x2`. -/
abbrev step (x0 : Vec F S1x5000x2 .f32) (x1 x2 : Vec F S1x128 .f32) (acc : Vec F S128x128 .f32) : Vec F S128x128 .f32 :=
  k0_pay3 (col0 x0) (col1 x0) x1 x2 acc

/-- A middle step leaves, in the accumulator, one step over what the step before left. -/
theorem scratch_B (c : Dev nD) (i : grid0.Coords) (arg2 : Memref sig .tc .vmem S1x5000x2 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128x128 .f32) (harg5 : arg5.IsWhole) (arg6 : Memref sig .tc .vmem S128x128 .f32) (harg6 : arg6.IsWhole) (hc0 : ¬cond0_0 i) (hc1 : ¬cond0_1 i)
    (x0 : Vec F S1x5000x2 .f32) (x1 : Vec F S1x128 .f32) (x2 : Vec F S1x128 .f32) (xs0 : Vec F S128x128 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero zeros2]
  simp only [View.readAt_eq_ld, harg2.read_unread, harg3.read_unread, harg4.read_unread, harg6.read_unread,
    View.ld_unit_zero (S := S1x128) zeros2, View.ld_unit_zero (S := S128x128) zeros2]

/-- The first step of a shard stores the zero matrix, reads it back, and leaves one step over it. -/
theorem scratch_A (c : Dev nD) (i : grid0.Coords) (arg2 : Memref sig .tc .vmem S1x5000x2 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128x128 .f32) (harg5 : arg5.IsWhole) (arg6 : Memref sig .tc .vmem S128x128 .f32) (harg6 : arg6.IsWhole) (hc0 : cond0_0 i) (hc1 : ¬cond0_1 i)
    (x0 : Vec F S1x5000x2 .f32) (x1 : Vec F S1x128 .f32) (x2 : Vec F S1x128 .f32) :
    sout0_A_0 c i arg2 harg2 arg3 harg3 arg4 harg4 arg5 harg5 arg6 harg6 hc0 hc1 x0 x1 x2 = step x0 x1 x2 k0_pay2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S128x128) zeros2, View.readCov_unit_zero (S := S128x128) _ zeros2]
  simp only [View.readAt_eq_ld, harg2.read_unread, harg3.read_unread, harg4.read_unread,
    View.ld_unit_zero (S := S1x128) zeros2]

/-- The last step of a shard leaves the same in the accumulator, -/
theorem scratch_C (c : Dev nD) (i : grid0.Coords) (arg2 : Memref sig .tc .vmem S1x5000x2 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128x128 .f32) (harg5 : arg5.IsWhole) (arg6 : Memref sig .tc .vmem S128x128 .f32) (harg6 : arg6.IsWhole) (hc0 : ¬cond0_0 i) (hc1 : cond0_1 i)
    (x0 : Vec F S1x5000x2 .f32) (x1 : Vec F S1x128 .f32) (x2 : Vec F S1x128 .f32) (xs0 : Vec F S128x128 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zeros2]
  simp only [View.readAt_eq_ld, harg2.read_unread, harg3.read_unread, harg4.read_unread, harg6.read_unread,
    View.ld_unit_zero (S := S1x128) zeros2, View.ld_unit_zero (S := S128x128) zeros2]

/-- and copies it to the output block. -/
theorem out_C (c : Dev nD) (i : grid0.Coords) (arg2 : Memref sig .tc .vmem S1x5000x2 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128x128 .f32) (harg5 : arg5.IsWhole) (arg6 : Memref sig .tc .vmem S128x128 .f32) (harg6 : arg6.IsWhole) (hc0 : ¬cond0_0 i) (hc1 : cond0_1 i)
    (x0 : Vec F S1x5000x2 .f32) (x1 : Vec F S1x128 .f32) (x2 : Vec F S1x128 .f32) (xs0 : Vec F S128x128 .f32) :
    out0_C_3 c i arg2 harg2 arg3 harg3 arg4 harg4 arg5 harg5 arg6 harg6 hc0 hc1 x0 x1 x2 xs0 = k0_pay1 (step x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zeros3, View.readCov_unit_zero (S := S128x128) _ zeros2]
  simp only [View.readAt_eq_ld, harg2.read_unread, harg3.read_unread, harg4.read_unread, harg6.read_unread,
    View.ld_unit_zero (S := S1x128) zeros2, View.ld_unit_zero (S := S128x128) zeros2]

end Cert.KernelIdeal.Pieces

end
-- ==== Proof.LibKeepdimsCol.lean ====
/-
  Two layout operations read at an index given by coordinates, for any element type and any extents:
  the shape cast that appends a unit axis to a vector, and the broadcast of a one-column matrix along its rows.
  Together they are what a row statistic kept as a column (a sum over the last axis with the axis kept)
  looks like when it is spread back over a matrix.
-/
import Idealize.ShloMosaic.Lib.ValueLayout

namespace Cert.LibKeepdimsCol

open Idealize.ShloMosaic Idealize.ShloMosaic.ValueIdx

variable {α : Type}

/-- A vector of length `a` cast to an `a × 1` column reads, at `(i, u)`, the vector at `i`: both sit at
    row-major position `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCol
-- ==== Proof.Payload.lean ====
/-
  The body's arithmetic at a bin, at the ideal values.

  With the points' coordinates already scaled by the reciprocal bin width, the weight of a scaled coordinate `v`
  against a scaled centre `c` is `gauss v c = exp ((-1/2 · (v - c)) · (v - c))`. One step of the body adds to the
  accumulator, at bin `(i, j)`, the sum over the block's 5000 points of the weight of coordinate 0 against x-centre
  `i` times the weight of coordinate 1 against y-centre `j`: the block's weight matrices (5000 × 128 each, rounded
  to bf16, which changes nothing at the ideal values) contracted over the points.
-/
import proofs.«143320_j28252294873506_1_alg».proof.Proof.Gen.KernelIdeal.Skeleton
import proofs.«143320_j28252294873506_1_alg».proof.Proof.Spec
import proofs.«143320_j28252294873506_1_alg».proof.Proof.LibKeepdimsCol
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- The weight of a scaled coordinate against a scaled centre. -/
def gauss (v c : EReal) : EReal := Ideal.exp ((Cert.Hist.wNegHalf * (v - c)) * (v - c))

/-- The weights of one column of a block of points against one row of centres, as the body computes them. -/
def weights (v : Vec Ideal S1x5000x1 .f32) (w : Vec Ideal S1x128 .f32) : FVec Ideal S5000x128 .bf16 :=
  truncf .bf16 (exp (mulf (mulf (broadcast S5000x128 (Scalar.ofBits .f32 0xBF000000#32))
      (subf (broadcastTo S5000x128 (shapeCast S5000x1 v shapeCasts_S1x5000x1_S5000x1) broadcasts_S5000x1_S5000x128)
        (broadcastTo S5000x128 (shapeCast S1x128 w shapeCasts_S1x128_S1x128) broadcasts_S1x128_S5000x128)))
      (subf (broadcastTo S5000x128 (shapeCast S5000x1 v shapeCasts_S1x5000x1_S5000x1) broadcasts_S5000x1_S5000x128)
        (broadcastTo S5000x128 (shapeCast S1x128 w shapeCasts_S1x128_S1x128) broadcasts_S1x128_S5000x128)))) bitsLt_bf16_f32

/-- Point `k` against centre `i`: the column entry of row `k` and the centre row's entry `i`. -/
theorem weights_apply (v : Vec Ideal S1x5000x1 .f32) (w : Vec Ideal S1x128 .f32) (k : Fin 5000) (i : Fin 128) :
    weights v w (ix2 k i) = gauss (v (ix3 (0 : Fin 1) k (0 : Fin 1))) (w (ix2 (0 : Fin 1) i)) := by
  have e1 : broadcastTo S5000x128 (shapeCast S5000x1 v shapeCasts_S1x5000x1_S5000x1) broadcasts_S5000x1_S5000x128 (ix2 k i)
      = v (ix3 (0 : Fin 1) k (0 : Fin 1)) := by
    rw [Cert.LibKeepdimsCol.broadcastTo_a1_ab_apply, shapeCast_1ab_ab_apply]
  have e2 : broadcastTo S5000x128 (shapeCast S1x128 w shapeCasts_S1x128_S1x128) broadcasts_S1x128_S5000x128 (ix2 k i)
      = w (ix2 (0 : Fin 1) i) := by
    rw [broadcastTo_1b_ab_apply, shapeCast_self]
  unfold weights gauss
  show Ideal.exp ((Ideal.ofBits .f32 0xBF000000#32 * (_ - _)) * (_ - _)) = _
  rw [e1, e2]

/-- The body's step as an accumulator plus a matrix product of two weight matrices. -/
theorem pay3_eq (v3 v5 : Vec Ideal S1x5000x1 .f32) (v7 v9 : Vec Ideal S1x128 .f32) (v28 : Vec Ideal S128x128 .f32) :
    k0_pay3 (F := Ideal) v3 v5 v7 v9 v28
      = shapeCast S128x128 (addf v28 (matmul dot_S5000x128_S5000x128_S128x128_0_0_1_1_n_n none (weights v3 v7) (weights v5 v9)
          (constant S128x128 .f32 0x00000000#32))) shapeCasts_S128x128_S128x128 := rfl

theorem lhs_row (y : S128x128.Idx) (q : dot_S5000x128_S5000x128_S128x128_0_0_1_1_n_n.contr.Idx) :
    (dot_S5000x128_S5000x128_S128x128_0_0_1_1_n_n.lhsIdx y q 1).val = (y 0).val := by
  unfold DotDims.lhsIdx
  rw [dif_neg (show ¬(1 : Fin S5000x128.rank) ∈ dot_S5000x128_S5000x128_S128x128_0_0_1_1_n_n.lhsBatch by decide), dif_pos (show (1 : Fin S5000x128.rank) ∈ dot_S5000x128_S5000x128_S128x128_0_0_1_1_n_n.lhsNonContracting by decide)]
  rfl

theorem rhs_row (y : S128x128.Idx) (q : dot_S5000x128_S5000x128_S128x128_0_0_1_1_n_n.contr.Idx) :
    (dot_S5000x128_S5000x128_S128x128_0_0_1_1_n_n.rhsIdx y q 1).val = (y 1).val := by
  unfold DotDims.rhsIdx
  rw [dif_neg (show ¬(1 : Fin S5000x128.rank) ∈ dot_S5000x128_S5000x128_S128x128_0_0_1_1_n_n.rhsBatch by decide), dif_pos (show (1 : Fin S5000x128.rank) ∈ dot_S5000x128_S5000x128_S128x128_0_0_1_1_n_n.rhsNonContracting by decide)]
  rfl

/-- One step at bin `(i, j)`: the accumulator there plus the block's sum of products of weights. -/
theorem pay3_apply (v3 v5 : Vec Ideal S1x5000x1 .f32) (v7 v9 : Vec Ideal S1x128 .f32) (v28 : Vec Ideal S128x128 .f32) (i j : Fin 128) :
    k0_pay3 (F := Ideal) v3 v5 v7 v9 v28 (ix2 i j)
      = v28 (ix2 i j) + ∑ k : Fin 5000, gauss (v3 (ix3 (0 : Fin 1) k (0 : Fin 1))) (v7 (ix2 (0 : Fin 1) i))
          * gauss (v5 (ix3 (0 : Fin 1) k (0 : Fin 1))) (v9 (ix2 (0 : Fin 1) j)) := by
  rw [pay3_eq, shapeCast_self]
  show v28 (ix2 i j) + FloatOps.matmul dot_S5000x128_S5000x128_S128x128_0_0_1_1_n_n none (weights v3 v7) (weights v5 v9) (constant S128x128 .f32 0x00000000#32) (ix2 i j) = _
  refine congrArg (v28 (ix2 i j) + ·) ?_
  rw [Ideal.matmul_constant_zero_apply, ← Equiv.sum_comp (contrEquiv1 dot_S5000x128_S5000x128_S128x128_0_0_1_1_n_n 5000 rfl rfl).symm]
  refine Finset.sum_congr rfl fun k _ => ?_
  have hk := contrEquiv1_symm_val dot_S5000x128_S5000x128_S128x128_0_0_1_1_n_n 5000 rfl rfl k
  have el : dot_S5000x128_S5000x128_S128x128_0_0_1_1_n_n.lhsIdx (ix2 i j) ((contrEquiv1 dot_S5000x128_S5000x128_S128x128_0_0_1_1_n_n 5000 rfl rfl).symm k) = ix2 k i := funext fun a => Fin.ext (by
    match a with
    | ⟨0, _⟩ => exact (dot_S5000x128_S5000x128_S128x128_0_0_1_1_n_n.lhsIdx_val_of_single rfl _ _).trans hk
    | ⟨1, _⟩ => exact lhs_row _ _)
  have er : dot_S5000x128_S5000x128_S128x128_0_0_1_1_n_n.rhsIdx (ix2 i j) ((contrEquiv1 dot_S5000x128_S5000x128_S128x128_0_0_1_1_n_n 5000 rfl rfl).symm k) = ix2 k j := funext fun a => Fin.ext (by
    match a with
    | ⟨0, _⟩ => exact (dot_S5000x128_S5000x128_S128x128_0_0_1_1_n_n.rhsIdx_val_of_single rfl _ _).trans hk
    | ⟨1, _⟩ => exact rhs_row _ _)
  rw [el, er, weights_apply, weights_apply]

/-- The zero matrix the first step of a shard stores reads `0.0` everywhere. -/
theorem pay2_apply (y : S128x128.Idx) : k0_pay2 (F := Ideal) y = Cert.Hist.wZero := by
  unfold k0_pay2
  rw [shapeCast_self]
  rfl

/-- The output block is the accumulator under a leading unit axis. -/
theorem pay1_apply (v36 : Vec Ideal S128x128 .f32) (u : Fin 1) (i j : Fin 128) :
    k0_pay1 (F := Ideal) v36 (ix3 u i j) = v36 (ix2 i j) := by
  unfold k0_pay1
  exact shapeCast_ab_1ab_apply v36 _ u i j

end Cert.KernelIdeal.Payload

end
-- ==== Proof.Accum.lean ====
/-
  The accumulator over a shard, as a sum.

  The grid has 2 shards of 50 steps; point `n` is step `n % 50` of shard `n / 50`. The accumulator is reset at step 0
  and each step adds its block's product matrix, so after point `n` it holds, at bin `(i, j)`, the sum over the steps
  `0 … n % 50` of that shard of the step's addend — by induction on the point, never by enumerating the grid. The
  addend of a point is the sum over its block's 5000 points of the product of the two weights; the `0.0` the reset
  stores is the extended real `0` and disappears. At the last step of a shard the output block is the accumulator.
-/
import proofs.«143320_j28252294873506_1_alg».proof.Proof.Gen.KernelIdeal.Frame
import proofs.«143320_j28252294873506_1_alg».proof.Proof.Pieces
import proofs.«143320_j28252294873506_1_alg».proof.Proof.Payload

noncomputable section

open Idealize.ShloMosaic Idealize.ShloMosaic.TcCoe Idealize.SL.Sem

open Idealize.ShloMosaic.Pipeline (Dat)

namespace Cert.KernelIdeal.Accum

open Cert.KernelIdeal Cert.KernelIdeal.Gen Idealize.ShloMosaic.ValueIdx Cert.KernelIdeal.Payload

section AnyValues

variable {F : FTy → Type} [FloatOps F]
variable (m : (ℓ : Loc nD τ sig) → Buf (Elt F) ℓ) (c : Dev nD)

/-- The three input blocks at a point: 5000 points' two scaled coordinates, the scaled x centres, the scaled y centres. -/
abbrev pts (t : Fin cfg0.N) : Vec F S1x5000x2 .f32 := iblk m c 0 t
abbrev cxs (t : Fin cfg0.N) : Vec F S1x128 .f32 := iblk m c 1 t
abbrev cys (t : Fin cfg0.N) : Vec F S1x128 .f32 := iblk m c 2 t

/-- At the first step of a shard the accumulator ends at one step over the zero matrix. -/
theorem scratch_first (t : Fin cfg0.N) (h0 : t.val % 50 = 0) (h1 : ¬t.val % 50 = 49) :
    (outsAt0 m c t.val t.isLt).2 = Pieces.step (pts m c t) (cxs m c t) (cys m c t) k0_pay2 :=
  (congrArg Prod.snd (outsAt0_A m c t h0 h1)).trans
    (Pieces.scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- At every other step it ends at one step over what the point before left. -/
theorem scratch_next (t : Fin cfg0.N) (h0 : ¬t.val % 50 = 0) :
    (outsAt0 m c t.val t.isLt).2 = Pieces.step (pts m c t) (cxs m c t) (cys m c t)
      (outsAt0 m c (t.val - 1) (Nat.lt_of_le_of_lt (Nat.sub_le _ _) t.isLt)).2 := by
  by_cases h1 : t.val % 50 = 49
  · exact (congrArg Prod.snd (outsAt0_C m c t h0 h1)).trans
      (Pieces.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
        (outsAt0 m c (t.val - 1) (Nat.lt_of_le_of_lt (Nat.sub_le _ _) t.isLt)).2)
  · exact (congrArg Prod.snd (outsAt0_B m c t h0 h1)).trans
      (Pieces.scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
        (outsAt0 m c (t.val - 1) (Nat.lt_of_le_of_lt (Nat.sub_le _ _) t.isLt)).2)

/-- At the last step of a shard the output block is the accumulator as that step leaves it. -/
theorem out_last (t : Fin cfg0.N) (h0 : ¬t.val % 50 = 0) (h1 : t.val % 50 = 49) :
    (outsAt0 m c t.val t.isLt).1 = k0_pay1 (outsAt0 m c t.val t.isLt).2 := by
  rw [scratch_next m c t h0]
  exact (congrArg Prod.fst (outsAt0_C m c t h0 h1)).trans
    (Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2)

end AnyValues

section IdealValues

variable (m : (ℓ : Loc nD τ sig) → Buf (Elt Ideal) ℓ) (c : Dev nD)

/-- Column 0 of a block read at row `k` is the block's entry `(k, 0)`; column 1 its entry `(k, 1)`. -/
theorem col0_apply (x0 : Vec Ideal S1x5000x2 .f32) (k : Fin 5000) :
    Pieces.col0 x0 (ix3 (0 : Fin 1) k (0 : Fin 1)) = x0 (ix3 (0 : Fin 1) k (0 : Fin 2)) := by
  show x0 ((Rect.unit (s := S1x5000x2) ![0, 0, 0] S1x5000x1.size inb_S1x5000x2_S1x5000x1_0_0_0).emb (ix3 (0 : Fin 1) k (0 : Fin 1))) = _
  refine congrArg x0 (funext fun a => Fin.ext ?_)
  rw [Rect.emb_apply]
  match a with
  | ⟨0, _⟩ => rfl
  | ⟨1, _⟩ => show 0 + 1 * k.val = k.val; omega
  | ⟨2, _⟩ => rfl

theorem col1_apply (x0 : Vec Ideal S1x5000x2 .f32) (k : Fin 5000) :
    Pieces.col1 x0 (ix3 (0 : Fin 1) k (0 : Fin 1)) = x0 (ix3 (0 : Fin 1) k (1 : Fin 2)) := by
  show x0 ((Rect.unit (s := S1x5000x2) ![0, 0, 1] S1x5000x1.size inb_S1x5000x2_S1x5000x1_0_0_1).emb (ix3 (0 : Fin 1) k (0 : Fin 1))) = _
  refine congrArg x0 (funext fun a => Fin.ext ?_)
  rw [Rect.emb_apply]
  match a with
  | ⟨0, _⟩ => rfl
  | ⟨1, _⟩ => show 0 + 1 * k.val = k.val; omega
  | ⟨2, _⟩ => rfl

/-- What a block adds at bin `(i, j)`: the sum over its points of the product of the two weights. -/
def blockSum (x0 : Vec Ideal S1x5000x2 .f32) (x1 x2 : Vec Ideal S1x128 .f32) (i j : Fin 128) : EReal :=
  ∑ k : Fin 5000, gauss (x0 (ix3 (0 : Fin 1) k (0 : Fin 2))) (x1 (ix2 (0 : Fin 1) i))
    * gauss (x0 (ix3 (0 : Fin 1) k (1 : Fin 2))) (x2 (ix2 (0 : Fin 1) j))

/-- One step at a bin. -/
theorem step_apply (x0 : Vec Ideal S1x5000x2 .f32) (x1 x2 : Vec Ideal S1x128 .f32) (acc : Vec Ideal S128x128 .f32) (i j : Fin 128) :
    Pieces.step x0 x1 x2 acc (ix2 i j) = acc (ix2 i j) + blockSum x0 x1 x2 i j := by
  show k0_pay3 (F := Ideal) (Pieces.col0 x0) (Pieces.col1 x0) x1 x2 acc (ix2 i j) = _
  rw [pay3_apply]
  unfold blockSum
  refine congrArg (acc (ix2 i j) + ·) (Finset.sum_congr rfl fun k _ => ?_)
  rw [col0_apply, col1_apply]

/-- The grid point numbered `n` (numbers past the grid wrap; they are never used). -/
def pt (n : ℕ) : Fin cfg0.N := ⟨n % 100, lt_of_lt_of_eq (Nat.mod_lt _ (by decide)) (N_0).symm⟩

theorem pt_eq (n : ℕ) (h : n < cfg0.N) : pt n = ⟨n, h⟩ :=
  Fin.ext (Nat.mod_eq_of_lt (lt_of_lt_of_eq h N_0))

/-- Point `n`'s addend at bin `(i, j)`. -/
def addend (n : ℕ) (i j : Fin 128) : EReal :=
  blockSum (pts m c (pt n)) (cxs m c (pt n)) (cys m c (pt n)) i j

/-- THE ACCUMULATOR after point `n`: the sum of the addends of its shard's steps up to `n`. -/
theorem scratch_sum : ∀ (n : ℕ) (h : n < cfg0.N) (i j : Fin 128),
    (outsAt0 m c n h).2 (ix2 i j) = ∑ s ∈ Finset.range (n % 50 + 1), addend m c (n - n % 50 + s) i j
  | 0, h, i, j => by
    rw [scratch_first m c ⟨0, h⟩ rfl (by show ¬(0 : ℕ) % 50 = 49; decide), step_apply, pay2_apply, Cert.Hist.wZero_eq, zero_add]
    show _ = ∑ s ∈ Finset.range 1, addend m c (0 - 0 + s) i j
    rw [Finset.sum_range_one]
    unfold addend
    rw [pt_eq 0 h]
  | n + 1, h, i, j => by
    have hN : n + 1 < 100 := lt_of_lt_of_eq h N_0
    by_cases h0 : (n + 1) % 50 = 0
    · have h1 : ¬(n + 1) % 50 = 49 := by omega
      rw [scratch_first m c ⟨n + 1, h⟩ h0 h1, step_apply, pay2_apply, Cert.Hist.wZero_eq, zero_add, h0]
      rw [Finset.sum_range_one]
      unfold addend
      rw [show n + 1 - 0 + 0 = n + 1 from rfl, pt_eq (n + 1) h]
    · rw [scratch_next m c ⟨n + 1, h⟩ h0, step_apply]
      show (outsAt0 m c n _).2 (ix2 i j) + _ = _
      rw [scratch_sum n (Nat.lt_of_succ_lt h) i j]
      have e1 : (n + 1) % 50 = n % 50 + 1 := by omega
      have e2 : n + 1 - (n % 50 + 1) = n - n % 50 := by omega
      rw [e1, e2, Finset.sum_range_succ _ (n % 50 + 1)]
      refine congrArg (_ + ·) ?_
      unfold addend
      rw [show n - n % 50 + (n % 50 + 1) = n + 1 from by omega, pt_eq (n + 1) h]

end IdealValues

end Cert.KernelIdeal.Accum

end
-- ==== Proof.RefValue.lean ====
/-
  The reference program's intermediate values, read at an index, are the specification's quantities:
  the bin centres, the first-bin widths, and the unnormalised histogram in quotient form.
-/
import proofs.«143320_j28252294873506_1_alg».proof.Proof.Spec
import proofs.«143320_j28252294873506_1_alg».proof.Proof.Gen.ReferenceIdeal.Read

noncomputable section

namespace Cert.Hist.Ref

open Idealize.ShloMosaic Idealize.ShloMosaic.ValueIdx Cert.ReferenceIdeal Cert.ReferenceIdeal.Gen Cert.ReferenceIdeal.Read Cert.Hist

/-- The slice `[0:128]` at bin `i` reads edge `i`. -/
theorem idx_lower (i : Fin 128) : idx_main_v0 (ix1 i) = ix1 (lowerEdge i) :=
  funext fun a => Fin.ext (by match a with | ⟨0, _⟩ => rfl)

/-- The slice `[1:129]` at bin `i` reads edge `i + 1`. -/
theorem idx_upper (i : Fin 128) : idx_main_v1 (ix1 i) = ix1 (upperEdge i) :=
  funext fun a => Fin.ext (by match a with | ⟨0, _⟩ => rfl)

/-- The x-axis centre of bin `i`: half the sum of edges `i` and `i + 1`. -/
theorem centre_x (ex : (⟨S129, .f32⟩ : BufTy).Contents (Elt Ideal)) (i : Fin 128) :
    val_main_v4 (F := Ideal) ex (ix1 i) = centre ex i := by
  rw [val_main_v4_apply, val_main_v3_apply, val_main_cst_apply, val_main_v2_apply, val_main_v0_apply,
    val_main_v1_apply, idx_lower, idx_upper]
  rfl

/-- The y-axis centre of bin `j`. -/
theorem centre_y (ey : (⟨S129, .f32⟩ : BufTy).Contents (Elt Ideal)) (j : Fin 128) :
    val_main_v9 (F := Ideal) ey (ix1 j) = centre ey j := by
  rw [val_main_v9_apply, val_main_v8_apply, val_main_cst_0_apply, val_main_v7_apply, val_main_v5_apply,
    val_main_v6_apply]
  rw [show idx_main_v5 (ix1 j) = ix1 (lowerEdge j) from idx_lower j,
    show idx_main_v6 (ix1 j) = ix1 (upperEdge j) from idx_upper j]
  rfl

/-- The one element of a one-element vector and the one element of a scalar sit at the same row-major position. -/
theorem pos_one_scalar (u : S_.Idx) :
    (S1.rowMajor (ix1 (0 : Fin 1))).val = (S_.rowMajor u).val := by
  rw [Shape.rowMajor_val_one]
  exact (Shape.rowMajorPi_zero _ u).symm

/-- The width of the first x bin: edge 1 minus edge 0. -/
theorem width_x (ex : (⟨S129, .f32⟩ : BufTy).Contents (Elt Ideal)) (u : S_.Idx) :
    val_main_v14 (F := Ideal) ex u = width ex := by
  rw [val_main_v14_apply]
  unfold val_main_v11 val_main_v13
  rw [shapeCast_apply (val_main_v10 (F := Ideal) ex) shapeCasts_S1_S_ u (ix1 (0 : Fin 1)) (pos_one_scalar u),
    shapeCast_apply (val_main_v12 (F := Ideal) ex) shapeCasts_S1_S_ u (ix1 (0 : Fin 1)) (pos_one_scalar u),
    val_main_v10_apply, val_main_v12_apply]
  rw [show idx_main_v10 (ix1 (0 : Fin 1)) = ix1 (⟨1, by decide⟩ : Fin 129) from
      funext fun a => Fin.ext (by match a with | ⟨0, _⟩ => rfl),
    show idx_main_v12 (ix1 (0 : Fin 1)) = ix1 (⟨0, by decide⟩ : Fin 129) from
      funext fun a => Fin.ext (by match a with | ⟨0, _⟩ => rfl)]
  rfl

/-- The width of the first y bin. -/
theorem width_y (ey : (⟨S129, .f32⟩ : BufTy).Contents (Elt Ideal)) (u : S_.Idx) :
    val_main_v19 (F := Ideal) ey u = width ey := by
  rw [val_main_v19_apply]
  unfold val_main_v16 val_main_v18
  rw [shapeCast_apply (val_main_v15 (F := Ideal) ey) shapeCasts_S1_S_ u (ix1 (0 : Fin 1)) (pos_one_scalar u),
    shapeCast_apply (val_main_v17 (F := Ideal) ey) shapeCasts_S1_S_ u (ix1 (0 : Fin 1)) (pos_one_scalar u),
    val_main_v15_apply, val_main_v17_apply]
  rw [show idx_main_v15 (ix1 (0 : Fin 1)) = ix1 (⟨1, by decide⟩ : Fin 129) from
      funext fun a => Fin.ext (by match a with | ⟨0, _⟩ => rfl),
    show idx_main_v17 (ix1 (0 : Fin 1)) = ix1 (⟨0, by decide⟩ : Fin 129) from
      funext fun a => Fin.ext (by match a with | ⟨0, _⟩ => rfl)]
  rfl

/-- The x weight of point `n` against bin `i`, in quotient form. -/
theorem weight_x (x : (⟨S500000x6, .f32⟩ : BufTy).Contents (Elt Ideal)) (ex : (⟨S129, .f32⟩ : BufTy).Contents (Elt Ideal))
    (n : Fin 500000) (i : Fin 128) :
    val_main_v32 (F := Ideal) x ex (ix2 n i) = weightQ (x (ix2 n (0 : Fin 6))) (centre ex i) (width ex) := by
  rw [val_main_v32_apply, val_main_v31_apply, val_main_v30_apply, val_main_cst_1_apply, val_main_v29_apply,
    val_main_v28_apply, val_main_v26_apply, val_main_v27_apply, val_main_v24_apply, val_main_v22_apply,
    val_main_v21_apply, val_main_v20_apply, val_main_v25_apply, val_main_v23_apply, width_x]
  rw [show idx_main_v23 (idx_main_v25 (ix2 n i)) = ix1 i from
      funext fun a => Fin.ext (by match a with | ⟨0, _⟩ => rfl),
    show idx_main_v20 (idx_main_v21 (idx_main_v22 (idx_main_v24 (ix2 n i)))) = ix2 n (0 : Fin 6) from
      funext fun a => Fin.ext (by
        match a with
        | ⟨0, _⟩ => exact Nat.div_one _
        | ⟨1, _⟩ => rfl),
    centre_x]
  rfl

/-- The y weight of point `n` against bin `j`, in quotient form. -/
theorem weight_y (x : (⟨S500000x6, .f32⟩ : BufTy).Contents (Elt Ideal)) (ey : (⟨S129, .f32⟩ : BufTy).Contents (Elt Ideal))
    (n : Fin 500000) (j : Fin 128) :
    val_main_v45 (F := Ideal) x ey (ix2 n j) = weightQ (x (ix2 n (1 : Fin 6))) (centre ey j) (width ey) := by
  rw [val_main_v45_apply, val_main_v44_apply, val_main_v43_apply, val_main_cst_2_apply, val_main_v42_apply,
    val_main_v41_apply, val_main_v39_apply, val_main_v40_apply, val_main_v37_apply, val_main_v35_apply,
    val_main_v34_apply, val_main_v33_apply, val_main_v38_apply, val_main_v36_apply, width_y]
  rw [show idx_main_v36 (idx_main_v38 (ix2 n j)) = ix1 j from
      funext fun a => Fin.ext (by match a with | ⟨0, _⟩ => rfl),
    show idx_main_v33 (idx_main_v34 (idx_main_v35 (idx_main_v37 (ix2 n j)))) = ix2 n (1 : Fin 6) from
      funext fun a => Fin.ext (by
        match a with
        | ⟨0, _⟩ => exact Nat.div_one _
        | ⟨1, _⟩ => rfl),
    centre_y]
  rfl

/-- The contraction over points: bin `(i, j)` of the reference's product of the two weight tables is the
    unnormalised histogram in quotient form. -/
theorem hist (x : (⟨S500000x6, .f32⟩ : BufTy).Contents (Elt Ideal)) (ex ey : (⟨S129, .f32⟩ : BufTy).Contents (Elt Ideal))
    (i j : Fin 128) :
    val_main_v46 (F := Ideal) x ex ey (ix2 i j) = histQ x ex ey i j := by
  rw [val_main_v46_apply]
  unfold histQ
  refine Finset.sum_congr rfl fun n _ => ?_
  rw [show lidx_main_v46 (ix2 i j) n = ix2 n i from
      funext fun a => Fin.ext (by match a with | ⟨0, _⟩ => rfl | ⟨1, _⟩ => rfl),
    show ridx_main_v46 (ix2 i j) n = ix2 n j from
      funext fun a => Fin.ext (by match a with | ⟨0, _⟩ => rfl | ⟨1, _⟩ => rfl),
    weight_x, weight_y]

end Cert.Hist.Ref

end
-- ==== Proof.HostIn.lean ====
/-
  What the host computes before the kernel is launched, read at an index.

  From the edges of an axis the host forms the first bin's width `b`, its reciprocal `1 / b`, the 128 bin centres,
  and the centres scaled by `1 / b` as a 1×128 row; from the points it takes coordinate 0 and coordinate 1, scales
  each by its axis' `1 / b`, lays them side by side as 500000×2 and regroups the rows as 2 shards of 250000:
  row `r` of shard `p` is point `250000·p + r`.
-/
import proofs.«143320_j28252294873506_1_alg».proof.Proof.Gen.KernelIdeal.Frame
import proofs.«143320_j28252294873506_1_alg».proof.Proof.Spec
import proofs.«143320_j28252294873506_1_alg».proof.Proof.RefValue
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem

namespace Cert.KernelIdeal.HostIn

open Cert.KernelIdeal Cert.KernelIdeal.Gen Idealize.ShloMosaic.ValueIdx Cert.Hist

/-- The reciprocal of the first bin's width, as the host computes it: `1.0 / (e[1] - e[0])`. -/
def recip (e : FVec Ideal S129 .f32) : FVec Ideal S_ .f32 :=
  Host.divf (F := Ideal) (constant (F := Ideal) S_ .f32 0x3F800000#32)
    (subf (shapeCast S_ (extractStridedSlice S1 ![1] e slices_S129_S1_1) shapeCasts_S1_S_)
      (shapeCast S_ (extractStridedSlice S1 ![0] e slices_S129_S1_0) shapeCasts_S1_S_))

/-- The bin centres: `0.5 · (e[0:128] + e[1:129])`. -/
def centres (e : FVec Ideal S129 .f32) : FVec Ideal S128 .f32 :=
  mulf (broadcastInDim S128 ![] bcast_S_S128 (constant (F := Ideal) S_ .f32 0x3F000000#32))
    (addf (extractStridedSlice S128 ![0] e slices_S129_S128_0) (extractStridedSlice S128 ![1] e slices_S129_S128_1))

/-- The centres scaled by the reciprocal width, as a 1×128 row. -/
def scaledCentres (e : FVec Ideal S129 .f32) : FVec Ideal S1x128 .f32 :=
  shapeCast S1x128 (mulf (centres e) (broadcastInDim S128 ![] bcast_S_S128 (recip e))) shapeCasts_S128_S1x128

/-- One coordinate of every point scaled by an axis' reciprocal width, as a 500000×1 column. -/
def scaledCol (x : FVec Ideal S500000x6 .f32) (off : Fin 2 → Nat) (hs : S500000x6.Slices off S500000x1)
    (e : FVec Ideal S129 .f32) : FVec Ideal S500000x1 .f32 :=
  broadcastInDim S500000x1 ![0] bcast_S500000_S500000x1_0
    (mulf (shapeCast S500000 (extractStridedSlice S500000x1 off x hs) shapeCasts_S500000x1_S500000)
      (broadcastInDim S500000 ![] bcast_S_S500000 (recip e)))

/-- The two scaled coordinates side by side, regrouped as 2 shards of 250000 points. -/
def scaledPts (x : FVec Ideal S500000x6 .f32) (ex ey : FVec Ideal S129 .f32) : FVec Ideal S2x250000x2 .f32 :=
  shapeCast S2x250000x2
    (concatenate S500000x2 1 [⟨S500000x1, scaledCol x ![0, 0] slices_S500000x6_S500000x1_0_0 ex⟩,
      ⟨S500000x1, scaledCol x ![0, 1] slices_S500000x6_S500000x1_0_1 ey⟩] concatenates_S500000x1_S500000x1_S500000x2_d1)
    shapeCasts_S500000x2_S2x250000x2

/-- `1 / b` with `b` the specification's width. -/
theorem recip_apply (e : FVec Ideal S129 .f32) (u : S_.Idx) : recip e u = Ideal.div wOne (width e) := by
  show Ideal.div (Ideal.ofBits .f32 0x3F800000#32) (Cert.ReferenceIdeal.Read.val_main_v14 (F := Ideal) e u) = _
  rw [Cert.Hist.Ref.width_x]

/-- The centres are the specification's. -/
theorem centres_apply (e : FVec Ideal S129 .f32) (i : Fin 128) : centres e (ix1 i) = centre e i :=
  (show centres e (ix1 i) = Cert.ReferenceIdeal.Read.val_main_v4 (F := Ideal) e (ix1 i) from rfl).trans
    (Cert.Hist.Ref.centre_x e i)

/-- Entry `i` of the scaled centre row: the centre times the reciprocal width. -/
theorem scaledCentres_apply (e : FVec Ideal S129 .f32) (i : Fin 128) :
    scaledCentres e (ix2 (0 : Fin 1) i) = centre e i * Ideal.div wOne (width e) := by
  unfold scaledCentres
  rw [shapeCast_a_1a_apply]
  show centres e (ix1 i) * broadcastInDim S128 ![] bcast_S_S128 (recip e) (ix1 i) = _
  rw [centres_apply, broadcastInDim_apply _ bcast_S_S128 (recip e) (ix1 i) ix0 (fun a => a.elim0), recip_apply]

/-- Row `n` of a scaled column: coordinate `col` of point `n` times the reciprocal width. -/
theorem scaledCol_apply (x : FVec Ideal S500000x6 .f32) (off : Fin 2 → Nat) (hs : S500000x6.Slices off S500000x1)
    (e : FVec Ideal S129 .f32) (col : Fin 6) (hoff : off = ![0, col.val]) (n : Fin 500000) (u : Fin 1) :
    scaledCol x off hs e (ix2 n u) = x (ix2 n col) * Ideal.div wOne (width e) := by
  subst hoff
  unfold scaledCol
  rw [broadcastInDim_apply _ bcast_S500000_S500000x1_0 _ (ix2 n u) (ix1 n) (fun a => match a with
    | ⟨0, _⟩ => by show n.val = if (500000 : Nat) = 1 then 0 else n.val; rw [if_neg (by decide)])]
  show shapeCast S500000 (extractStridedSlice S500000x1 ![0, col.val] x hs) shapeCasts_S500000x1_S500000 (ix1 n)
    * broadcastInDim S500000 ![] bcast_S_S500000 (recip e) (ix1 n) = _
  rw [shapeCast_apply (extractStridedSlice S500000x1 ![0, col.val] x hs) shapeCasts_S500000x1_S500000 (ix1 n) (ix2 n (0 : Fin 1)) (by
      rw [Shape.rowMajor_val_two, Shape.rowMajor_val_one]; show n.val * 1 + 0 = n.val; omega),
    extractStridedSlice_apply ![0, col.val] x hs (ix2 n (0 : Fin 1)) (ix2 n col) (fun a => match a with
      | ⟨0, _⟩ => by show n.val = 0 + n.val; omega
      | ⟨1, _⟩ => by show col.val = col.val + 0; omega),
    broadcastInDim_apply _ bcast_S_S500000 (recip e) (ix1 n) ix0 (fun a => a.elim0), recip_apply]

/-- Row `r` of shard `p` is point `250000·p + r`: its coordinate 0 scaled by the x axis' reciprocal width, -/
theorem scaledPts_apply0 (x : FVec Ideal S500000x6 .f32) (ex ey : FVec Ideal S129 .f32) (p : Fin 2) (r : Fin 250000)
    (n : Fin 500000) (hn : n.val = 250000 * p.val + r.val) :
    scaledPts x ex ey (ix3 p r (0 : Fin 2)) = x (ix2 n (0 : Fin 6)) * Ideal.div wOne (width ex) := by
  unfold scaledPts
  rw [shapeCast_apply _ shapeCasts_S500000x2_S2x250000x2 (ix3 p r (0 : Fin 2)) (ix2 n (0 : Fin 2)) (by
      rw [Shape.rowMajor_val_three, Shape.rowMajor_val_two]
      show n.val * 2 + 0 = (p.val * 250000 + r.val) * 2 + 0; omega),
    concatenate_pair_apply_left (1 : Fin S500000x2.rank) _ _ concatenates_S500000x1_S500000x1_S500000x2_d1 (ix2 n (0 : Fin 2)) rfl
      (ix2 n (0 : Fin 1)) (fun b => match b with | ⟨0, _⟩ => rfl | ⟨1, _⟩ => rfl)]
  exact scaledCol_apply x _ _ ex (0 : Fin 6) rfl n (0 : Fin 1)

/-- and its coordinate 1 scaled by the y axis'. -/
theorem scaledPts_apply1 (x : FVec Ideal S500000x6 .f32) (ex ey : FVec Ideal S129 .f32) (p : Fin 2) (r : Fin 250000)
    (n : Fin 500000) (hn : n.val = 250000 * p.val + r.val) :
    scaledPts x ex ey (ix3 p r (1 : Fin 2)) = x (ix2 n (1 : Fin 6)) * Ideal.div wOne (width ey) := by
  unfold scaledPts
  rw [shapeCast_apply _ shapeCasts_S500000x2_S2x250000x2 (ix3 p r (1 : Fin 2)) (ix2 n (1 : Fin 2)) (by
      rw [Shape.rowMajor_val_three, Shape.rowMajor_val_two]
      show n.val * 2 + 1 = (p.val * 250000 + r.val) * 2 + 1; omega),
    concatenate_pair_apply_right (1 : Fin S500000x2.rank) _ _ concatenates_S500000x1_S500000x1_S500000x2_d1 (ix2 n (1 : Fin 2)) rfl rfl
      (ix2 n (0 : Fin 1)) (fun b hb => match b with
        | ⟨0, _⟩ => rfl
        | ⟨1, _⟩ => absurd rfl hb) rfl]
  exact scaledCol_apply x _ _ ey (1 : Fin 6) rfl n (0 : Fin 1)

section Region

variable (m : (ℓ : Loc nD τ sig) → Buf (Elt Ideal) ℓ) (c : Dev nD)

set_option maxHeartbeats 2000000 in
/-- What the kernel's three input arrays hold when it is launched. -/
theorem V_pts : (V m c main_v39 : S2x250000x2.Idx → EReal)
    = scaledPts (m ((c : Thread nD τ).loc main_arg0)) (m ((c : Thread nD τ).loc main_arg1)) (m ((c : Thread nD τ).loc main_arg2)) := by
  dsimp only [V, V0]
  simp only [hostOps0, List.flatten_cons, List.flatten_nil, List.append_nil, List.cons_append, List.nil_append]
  after_results_simp <;> rfl

set_option maxHeartbeats 2000000 in
theorem V_cx : (V m c main_v32 : S1x128.Idx → EReal) = scaledCentres (m ((c : Thread nD τ).loc main_arg1)) := by
  dsimp only [V, V0]
  simp only [hostOps0, List.flatten_cons, List.flatten_nil, List.append_nil, List.cons_append, List.nil_append]
  after_results_simp <;> rfl

set_option maxHeartbeats 2000000 in
theorem V_cy : (V m c main_v35 : S1x128.Idx → EReal) = scaledCentres (m ((c : Thread nD τ).loc main_arg2)) := by
  dsimp only [V, V0]
  simp only [hostOps0, List.flatten_cons, List.flatten_nil, List.append_nil, List.cons_append, List.nil_append]
  after_results_simp <;> rfl

set_option maxHeartbeats 2000000 in
/-- The two widths, which the host reads again after the kernel. -/
theorem V_wx (u : S_.Idx) : (V m c main_v14 : S_.Idx → EReal) u = width (m ((c : Thread nD τ).loc main_arg1)) := by
  have e : (V m c main_v14 : S_.Idx → EReal) = Cert.ReferenceIdeal.Read.val_main_v14 (F := Ideal) (m ((c : Thread nD τ).loc main_arg1)) := by
    dsimp only [V, V0]
    simp only [hostOps0, List.flatten_cons, List.flatten_nil, List.append_nil, List.cons_append, List.nil_append]
    after_results_simp <;> rfl
  rw [e, Cert.Hist.Ref.width_x]

set_option maxHeartbeats 2000000 in
theorem V_wy (u : S_.Idx) : (V m c main_v19 : S_.Idx → EReal) u = width (m ((c : Thread nD τ).loc main_arg2)) := by
  have e : (V m c main_v19 : S_.Idx → EReal) = Cert.ReferenceIdeal.Read.val_main_v19 (F := Ideal) (m ((c : Thread nD τ).loc main_arg2)) := by
    dsimp only [V, V0]
    simp only [hostOps0, List.flatten_cons, List.flatten_nil, List.append_nil, List.cons_append, List.nil_append]
    after_results_simp <;> rfl
  rw [e, Cert.Hist.Ref.width_y]

end Region

end Cert.KernelIdeal.HostIn

end
-- ==== Proof.Sums.lean ====
/-
  Splitting the sum over all points by shard, step and row.

  Point `n` of 500000 is row `k` of step `s` of shard `p` with `n = 250000·p + 5000·s + k`
  (`p < 2`, `s < 50`, `k < 5000`); this is a bijection, so a sum over the points is the triple sum.
-/
import proofs.«143320_j28252294873506_1_alg».proof.Proof.Spec

noncomputable section

namespace Cert.Hist

/-- The point at row `k` of step `s` of shard `p`. -/
def pointOf (p : Fin 2) (s : Fin 50) (k : Fin 5000) : Fin 500000 :=
  ⟨250000 * p.val + 5000 * s.val + k.val, by have := p.isLt; have := s.isLt; have := k.isLt; omega⟩

/-- Shard, step and row of a point, and back. -/
def pointEquiv : Fin 2 × Fin 50 × Fin 5000 ≃ Fin 500000 where
  toFun q := pointOf q.1 q.2.1 q.2.2
  invFun n := (⟨n.val / 250000, by have := n.isLt; omega⟩, ⟨n.val % 250000 / 5000, by have := n.isLt; omega⟩,
    ⟨n.val % 5000, by omega⟩)
  left_inv q := by
    obtain ⟨p, s, k⟩ := q
    have hp := p.isLt; have hs := s.isLt; have hk := k.isLt
    refine Prod.ext (Fin.ext ?_) (Prod.ext (Fin.ext ?_) (Fin.ext ?_))
    · show (250000 * p.val + 5000 * s.val + k.val) / 250000 = p.val; omega
    · show (250000 * p.val + 5000 * s.val + k.val) % 250000 / 5000 = s.val; omega
    · show (250000 * p.val + 5000 * s.val + k.val) % 5000 = k.val; omega
  right_inv n := by
    have hn := n.isLt
    refine Fin.ext ?_
    show 250000 * (n.val / 250000) + 5000 * (n.val % 250000 / 5000) + n.val % 5000 = n.val
    omega

/-- A sum over the points, shard by shard, step by step, row by row. -/
theorem sum_points {M : Type*} [AddCommMonoid M] (g : Fin 500000 → M) :
    ∑ n : Fin 500000, g n = ∑ p : Fin 2, ∑ s : Fin 50, ∑ k : Fin 5000, g (pointOf p s k) := by
  rw [← pointEquiv.sum_comp g, Fintype.sum_prod_type]
  refine Finset.sum_congr rfl fun p _ => ?_
  rw [Fintype.sum_prod_type]
  rfl

end Cert.Hist

end
-- ==== Proof.Blocks.lean ====
/-
  From blocks to the array of shard sums.

  Input window 0's block at point `t` is rows `5000·(t % 50) … + 4999` of shard `t / 50`; windows 1 and 2 always read the
  one row of scaled centres. So the addend of step `s` of shard `p` is the sum over rows `k` of the product of the two
  pre-scaled weights of point `250000·p + 5000·s + k`. The output block is written back only at the last step of a
  shard, into slab `p` of the 2×128×128 result; there it holds the accumulator, i.e. the sum of the shard's 50 addends.
  The two slabs cover the result, so after the run the result array is the array of shard sums.
-/
import proofs.«143320_j28252294873506_1_alg».proof.Proof.Gen.KernelIdeal.Frame
import proofs.«143320_j28252294873506_1_alg».proof.Proof.Accum
import proofs.«143320_j28252294873506_1_alg».proof.Proof.HostIn
import proofs.«143320_j28252294873506_1_alg».proof.Proof.Sums
import Idealize.ShloMosaic.Lib.Pipeline.Value

noncomputable section

open Idealize.ShloMosaic Idealize.ShloMosaic.TcCoe Idealize.SL.Sem

open Idealize.ShloMosaic.Pipeline (Dat)

namespace Cert.KernelIdeal.Blocks

open Cert.KernelIdeal Cert.KernelIdeal.Gen Idealize.ShloMosaic.ValueIdx Cert.KernelIdeal.Accum Cert.KernelIdeal.Payload Cert.Hist

variable (m : (ℓ : Loc nD τ sig) → Buf (Elt Ideal) ℓ) (c : Dev nD)

/-- The printed index maps, decided once over the 100 grid points. -/
theorem idx_pts : ∀ t : Fin cfg0.N, win0_0.index t (0 : Fin 3) = t.val / 50 ∧ win0_0.index t (1 : Fin 3) = t.val % 50
    ∧ win0_0.index t (2 : Fin 3) = 0 :=
  (by decide +kernel : ∀ t : Fin grid0.N, _)
theorem idx_cx : ∀ t : Fin cfg0.N, win0_1.index t (0 : Fin 2) = 0 ∧ win0_1.index t (1 : Fin 2) = 0 :=
  (by decide +kernel : ∀ t : Fin grid0.N, _)
theorem idx_cy : ∀ t : Fin cfg0.N, win0_2.index t (0 : Fin 2) = 0 ∧ win0_2.index t (1 : Fin 2) = 0 :=
  (by decide +kernel : ∀ t : Fin grid0.N, _)
theorem idx_out : ∀ t : Fin cfg0.N, win0_3.index t (0 : Fin 3) = t.val / 50 ∧ win0_3.index t (1 : Fin 3) = 0
    ∧ win0_3.index t (2 : Fin 3) = 0 :=
  (by decide +kernel : ∀ t : Fin grid0.N, _)

/-- Row `k` of the block of points at `t` is row `5000·(t % 50) + k` of shard `t / 50`. -/
theorem pts_apply (t : Fin cfg0.N) (k : Fin 5000) (col : Fin 2) (p : Fin 2) (r : Fin 250000)
    (hp : p.val = t.val / 50) (hr : r.val = t.val % 50 * 5000 + k.val) :
    pts m c t (ix3 (0 : Fin 1) k col) = (V m c main_v39 : S2x250000x2.Idx → EReal) (ix3 p r col) := by
  obtain ⟨e0, e1, e2⟩ := idx_pts t
  show V m c main_v39 (((cfg0.win 0).blk t).view.emb (ix3 (0 : Fin 1) k col)) = V m c main_v39 (ix3 p r col)
  refine congrArg (V m c main_v39) (funext fun a => Fin.ext ?_)
  match a with
  | ⟨0, _⟩ => show win0_0.index t (0 : Fin 3) * 1 + 1 * 0 = p.val; omega
  | ⟨1, _⟩ => show win0_0.index t (1 : Fin 3) * 5000 + 1 * k.val = r.val; omega
  | ⟨2, _⟩ => show win0_0.index t (2 : Fin 3) * 2 + 1 * col.val = col.val; omega

/-- The centre rows are read whole at every point. -/
theorem cxs_apply (t : Fin cfg0.N) (i : Fin 128) :
    cxs m c t (ix2 (0 : Fin 1) i) = (V m c main_v32 : S1x128.Idx → EReal) (ix2 (0 : Fin 1) i) := by
  obtain ⟨e0, e1⟩ := idx_cx t
  show V m c main_v32 (((cfg0.win 1).blk t).view.emb (ix2 (0 : Fin 1) i)) = V m c main_v32 (ix2 (0 : Fin 1) i)
  refine congrArg (V m c main_v32) (funext fun a => Fin.ext ?_)
  match a with
  | ⟨0, _⟩ => show win0_1.index t (0 : Fin 2) * 1 + 1 * 0 = 0; omega
  | ⟨1, _⟩ => show win0_1.index t (1 : Fin 2) * 128 + 1 * i.val = i.val; omega

theorem cys_apply (t : Fin cfg0.N) (j : Fin 128) :
    cys m c t (ix2 (0 : Fin 1) j) = (V m c main_v35 : S1x128.Idx → EReal) (ix2 (0 : Fin 1) j) := by
  obtain ⟨e0, e1⟩ := idx_cy t
  show V m c main_v35 (((cfg0.win 2).blk t).view.emb (ix2 (0 : Fin 1) j)) = V m c main_v35 (ix2 (0 : Fin 1) j)
  refine congrArg (V m c main_v35) (funext fun a => Fin.ext ?_)
  match a with
  | ⟨0, _⟩ => show win0_2.index t (0 : Fin 2) * 1 + 1 * 0 = 0; omega
  | ⟨1, _⟩ => show win0_2.index t (1 : Fin 2) * 128 + 1 * j.val = j.val; omega

/-- The addend of step `s` of shard `p`, in the argument arrays: the pre-scaled weights of the step's 5000 points. -/
theorem addend_eq (p : Fin 2) (s : Fin 50) (i j : Fin 128) :
    addend m c (50 * p.val + s.val) i j
      = ∑ k : Fin 5000, weightS (m ((c : Thread nD τ).loc main_arg0) (ix2 (pointOf p s k) (0 : Fin 6)))
            (centre (m ((c : Thread nD τ).loc main_arg1)) i) (width (m ((c : Thread nD τ).loc main_arg1)))
          * weightS (m ((c : Thread nD τ).loc main_arg0) (ix2 (pointOf p s k) (1 : Fin 6)))
            (centre (m ((c : Thread nD τ).loc main_arg2)) j) (width (m ((c : Thread nD τ).loc main_arg2))) := by
  have hp := p.isLt
  have hs := s.isLt
  have hlt : 50 * p.val + s.val < cfg0.N := by rw [show cfg0.N = 100 from N_0]; omega
  unfold addend blockSum
  rw [pt_eq _ hlt]
  refine Finset.sum_congr rfl fun k _ => ?_
  have hk := k.isLt
  have hr : 5000 * s.val + k.val < 250000 := by omega
  rw [pts_apply m c ⟨_, hlt⟩ k (0 : Fin 2) p ⟨5000 * s.val + k.val, hr⟩
        (by show p.val = (50 * p.val + s.val) / 50; omega)
        (by show 5000 * s.val + k.val = (50 * p.val + s.val) % 50 * 5000 + k.val; omega),
    pts_apply m c ⟨_, hlt⟩ k (1 : Fin 2) p ⟨5000 * s.val + k.val, hr⟩
        (by show p.val = (50 * p.val + s.val) / 50; omega)
        (by show 5000 * s.val + k.val = (50 * p.val + s.val) % 50 * 5000 + k.val; omega),
    cxs_apply, cys_apply, HostIn.V_pts, HostIn.V_cx, HostIn.V_cy,
    HostIn.scaledPts_apply0 _ _ _ p ⟨5000 * s.val + k.val, hr⟩ (pointOf p s k)
      (by show 250000 * p.val + 5000 * s.val + k.val = 250000 * p.val + (5000 * s.val + k.val); omega),
    HostIn.scaledPts_apply1 _ _ _ p ⟨5000 * s.val + k.val, hr⟩ (pointOf p s k)
      (by show 250000 * p.val + 5000 * s.val + k.val = 250000 * p.val + (5000 * s.val + k.val); omega),
    HostIn.scaledCentres_apply, HostIn.scaledCentres_apply]
  rfl

/-- The sum of a shard's 50 addends at a bin. -/
def shardSum (p : Fin 2) (i j : Fin 128) : EReal := ∑ s ∈ Finset.range 50, addend m c (50 * p.val + s) i j

/-- The array of shard sums. -/
def parts : S2x128x128.Idx → EReal := fun y => shardSum m c (y 0) (y 1) (y 2)

/-- WHAT A WRITE-BACK WRITES: at the last step of shard `p`, slab `p` of the shard sums. -/
theorem flushed_eq (t : Fin cfg0.N) (hf : (cfg0.win 3).flush t = true) :
    (dats m 0 c).flushed 3 t = ((cfg0.win 3).blk t).view.read (Elt Ideal) (parts m c) := by
  have h1 : t.val % 50 = 49 := (flush0_3 t).mp hf
  have h0 : ¬t.val % 50 = 0 := by omega
  have hN : t.val < 100 := lt_of_lt_of_eq t.isLt N_0
  obtain ⟨e0, e1, e2⟩ := idx_out t
  show (cfg0.win 3).cut (grid0.coords t) ((dats m 0 c).after 3 t) = _
  rw [after0_3, out_last m c t h0 h1]
  refine funext fun (y : S1x128x128.Idx) => ?_
  obtain ⟨u, i, j, rfl⟩ : ∃ (u : Fin 1) (i j : Fin 128), y = ix3 u i j := ⟨y 0, y 1, y 2, eq_ix3 y⟩
  have hu := u.isLt
  show k0_pay1 (F := Ideal) (outsAt0 m c t.val t.isLt).2 (ix3 u i j) = parts m c (((cfg0.win 3).blk t).view.emb (ix3 u i j))
  rw [pay1_apply, scratch_sum m c t.val t.isLt i j]
  have hemb : ((cfg0.win 3).blk t).view.emb (ix3 u i j) = ix3 (⟨t.val / 50, by omega⟩ : Fin 2) i j := funext fun a => Fin.ext (by
    match a with
    | ⟨0, _⟩ => show win0_3.index t (0 : Fin 3) * 1 + 1 * u.val = t.val / 50; omega
    | ⟨1, _⟩ => show win0_3.index t (1 : Fin 3) * 128 + 1 * i.val = i.val; omega
    | ⟨2, _⟩ => show win0_3.index t (2 : Fin 3) * 128 + 1 * j.val = j.val; omega)
  rw [hemb, h1, show t.val - 49 = 50 * (t.val / 50) from by omega]
  rfl

/-- Every entry of the result lies in the slab some shard's last step writes back. -/
theorem cover (y : S2x128x128.Idx) :
    ∃ t : Fin cfg0.N, (cfg0.win 3).flush t = true ∧ y ∈ ((cfg0.win 3).blk t).view.set := by
  have hy0 : (y 0).val < 2 := (y 0).isLt
  have hy1 : (y 1).val < 128 := (y 1).isLt
  have hy2 : (y 2).val < 128 := (y 2).isLt
  obtain ⟨t, ht⟩ : ∃ t : Fin cfg0.N, t.val = 50 * (y 0).val + 49 :=
    ⟨⟨50 * (y 0).val + 49, by rw [show cfg0.N = 100 from N_0]; omega⟩, rfl⟩
  obtain ⟨e0, e1, e2⟩ := idx_out t
  refine ⟨t, (flush0_3 t).mpr (by omega), ?_⟩
  show y ∈ ((View.whole main_v40).slice (win0_3.rect t)).set
  rw [View.set_slice_whole, Rect.mem_set_unit]
  intro a
  match a with
  | ⟨0, _⟩ => show win0_3.index t (0 : Fin 3) * 1 ≤ (y 0).val ∧ (y 0).val < win0_3.index t (0 : Fin 3) * 1 + 1; omega
  | ⟨1, _⟩ => show win0_3.index t (1 : Fin 3) * 128 ≤ (y 1).val ∧ (y 1).val < win0_3.index t (1 : Fin 3) * 128 + 128; omega
  | ⟨2, _⟩ => show win0_3.index t (2 : Fin 3) * 128 ≤ (y 2).val ∧ (y 2).val < win0_3.index t (2 : Fin 3) * 128 + 128; omega

/-- THE RESULT ARRAY after the run is the array of shard sums. -/
theorem final : (dats m 0 c).arrAt 3 cfg0.N = parts m c :=
  (dats m 0 c).arrAt_eq_of_cover 3 (parts m c) (flushed_eq m c) (cover)

/-- Summed over the two shards, the shard sums are the pre-scaled histogram over all points. -/
theorem parts_sum (i j : Fin 128) :
    ∑ p : Fin 2, parts m c (ix3 p i j)
      = histS (m ((c : Thread nD τ).loc main_arg0)) (m ((c : Thread nD τ).loc main_arg1)) (m ((c : Thread nD τ).loc main_arg2)) i j := by
  unfold histS
  rw [sum_points]
  refine Finset.sum_congr rfl fun p _ => ?_
  show shardSum m c p i j = _
  unfold shardSum
  rw [Finset.sum_range]
  refine Finset.sum_congr rfl fun s _ => ?_
  exact addend_eq m c p s i j

end Cert.KernelIdeal.Blocks

end
-- ==== Proof.Algebra.lean ====
/-
  The two forms of the weight agree on real arguments with a nonzero width, and so do the two histograms:
  for reals `v`, `c` and `b ≠ 0`, `v·(1/b) - c·(1/b) = (v - c)·(1/b)`, and division by `b` is multiplication by `1/b`.
-/
import proofs.«143320_j28252294873506_1_alg».proof.Proof.Spec

noncomputable section

namespace Cert.Hist

open Idealize.ShloMosaic Idealize.ShloMosaic.ValueIdx

/-- The pre-scaled weight is the quotient weight, at reals with a nonzero width. -/
theorem weight_eq (v c b : ℝ) (hb : b ≠ 0) :
    weightS (v : EReal) (c : EReal) (b : EReal) = weightQ (v : EReal) (c : EReal) (b : EReal) := by
  have key : ((-(1 / 2) : ℝ) * (v * (1 / b) - c * (1 / b))) * (v * (1 / b) - c * (1 / b))
      = (-(1 / 2) : ℝ) * ((v - c) * (1 / b) * ((v - c) * (1 / b))) := by ring
  unfold weightS weightQ
  simp only [Ideal.div_coe hb, wOne_eq, wNegHalf_eq, one_mul]
  simp only [← EReal.coe_mul, ← EReal.coe_sub]
  rw [key]

/-- A bin centre of real edges is a real. -/
theorem centre_real (e : SEdges.Idx → EReal) (he : ∀ a, ∃ r : ℝ, e a = (r : EReal)) (i : Fin 128) :
    ∃ r : ℝ, centre e i = (r : EReal) := by
  obtain ⟨r0, h0⟩ := he (ix1 (lowerEdge i))
  obtain ⟨r1, h1⟩ := he (ix1 (upperEdge i))
  refine ⟨(1 / 2) * (r0 + r1), ?_⟩
  unfold centre
  rw [h0, h1, wHalf_eq, EReal.coe_mul, EReal.coe_add]

/-- The first bin's width of real edges is a real, nonzero when the width is. -/
theorem width_real (e : SEdges.Idx → EReal) (he : ∀ a, ∃ r : ℝ, e a = (r : EReal)) (hw : width e ≠ 0) :
    ∃ r : ℝ, r ≠ 0 ∧ width e = (r : EReal) := by
  obtain ⟨r1, h1⟩ := he (ix1 (⟨1, by decide⟩ : Fin 129))
  obtain ⟨r0, h0⟩ := he (ix1 (⟨0, by decide⟩ : Fin 129))
  have hr : width e = ((r1 - r0 : ℝ) : EReal) := by
    unfold width
    rw [h1, h0, EReal.coe_sub]
  refine ⟨r1 - r0, fun hz => hw ?_, hr⟩
  rw [hr, hz, EReal.coe_zero]

/-- The two histograms agree when the arrays hold reals and both widths are nonzero. -/
theorem histS_eq_histQ (x : SPts.Idx → EReal) (ex ey : SEdges.Idx → EReal)
    (hx : ∀ a, ∃ r : ℝ, x a = (r : EReal)) (hex : ∀ a, ∃ r : ℝ, ex a = (r : EReal))
    (hey : ∀ a, ∃ r : ℝ, ey a = (r : EReal)) (hwx : width ex ≠ 0) (hwy : width ey ≠ 0) :
    histS x ex ey = histQ x ex ey := by
  funext i j
  obtain ⟨cx, hcx⟩ := centre_real ex hex i
  obtain ⟨cy, hcy⟩ := centre_real ey hey j
  obtain ⟨bx, hbx0, hbx⟩ := width_real ex hex hwx
  obtain ⟨by', hby0, hby⟩ := width_real ey hey hwy
  unfold histS histQ
  refine Finset.sum_congr rfl fun n _ => ?_
  obtain ⟨v0, hv0⟩ := hx (ix2 n (0 : Fin 6))
  obtain ⟨v1, hv1⟩ := hx (ix2 n (1 : Fin 6))
  rw [hv0, hv1, hcx, hcy, hbx, hby, weight_eq v0 cx bx hbx0, weight_eq v1 cy by' hby0]

end Cert.Hist

end
-- ==== Proof.HostOut.lean ====
/-
  What the host does after the kernel, and the result.

  The host adds the two shards' matrices, sums all bins of the total, multiplies that sum by the two first-bin
  widths and divides the total by the product. The reference ends with exactly the same normalisation of its own
  histogram, so once the two unnormalised histograms agree the two results are one term.
-/
import proofs.«143320_j28252294873506_1_alg».proof.Proof.Gen.KernelIdeal.Frame
import proofs.«143320_j28252294873506_1_alg».proof.Proof.Blocks
import proofs.«143320_j28252294873506_1_alg».proof.Proof.HostIn
import proofs.«143320_j28252294873506_1_alg».proof.Proof.RefValue
import proofs.«143320_j28252294873506_1_alg».proof.Proof.Algebra
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem

open Idealize.ShloMosaic.Pipeline (Dat)

namespace Cert.KernelIdeal.HostOut

open Cert.KernelIdeal Cert.KernelIdeal.Gen Idealize.ShloMosaic.ValueIdx Cert.KernelIdeal.Blocks Cert.Hist

/-- The normalisation both programs end with: `H / ((Σ H · bx) · by)`, entry by entry. -/
def normalise (H : FVec Ideal S128x128 .f32) (bx bwy : FVec Ideal S_ .f32) : FVec Ideal S128x128 .f32 :=
  Host.divf (F := Ideal) H (broadcastInDim S128x128 ![] bcast_S_S128x128
    (mulf (mulf (Host.reduceAdd (F := Ideal) H (constant (F := Ideal) S_ .f32 0x00000000#32) reducesTo_S128x128_S_d0_1 h_S_) bx) bwy))

/-- The two shards' matrices added. -/
def total (P : FVec Ideal S2x128x128 .f32) : FVec Ideal S128x128 .f32 :=
  Host.reduceAdd (F := Ideal) P (constant (F := Ideal) S_ .f32 0x00000000#32) reducesTo_S2x128x128_S128x128_d0 h_S_

variable (m : (ℓ : Loc nD τ sig) → Buf (Elt Ideal) ℓ) (c : Dev nD)

set_option maxHeartbeats 2000000 in
/-- The kernel program's result: the normalised total of the shard sums. -/
theorem result_eq : Pipeline.afterTail₀ cfgs (dats m) 0 (V0 m) [hostOps1] c main_v46
    = normalise (total (parts m c)) (V m c main_v14) (V m c main_v19) := by
  unfold Pipeline.afterTail₀
  show StableHlo.after hostOps1 _ (Proc.devRef .tc main_v46) = _
  after_results
  rw [show Pipeline.withArrays (cfgs 0).spec c (V0 m c) (fun w => (dats m 0 c).arrAt w (cfgs 0).N) (Proc.devRef .tc main_v40) = parts m c from
      (Pipeline.withArrays_arr spec0 launch0.win.arr_inj c _ _ 3).trans (final m c),
    show Pipeline.withArrays (cfgs 0).spec c (V0 m c) (fun w => (dats m 0 c).arrAt w (cfgs 0).N) (Proc.devRef .tc main_v14) = V m c main_v14 from
      Pipeline.withArrays_of_ne _ c (V0 m c) _ main_v14 (by exact (by decide : ∀ w, Pipeline.arrRef spec0 w ≠ main_v14)),
    show Pipeline.withArrays (cfgs 0).spec c (V0 m c) (fun w => (dats m 0 c).arrAt w (cfgs 0).N) (Proc.devRef .tc main_v19) = V m c main_v19 from
      Pipeline.withArrays_of_ne _ c (V0 m c) _ main_v19 (by exact (by decide : ∀ w, Pipeline.arrRef spec0 w ≠ main_v19))]
  rfl

/-- The total at a bin: the two shards' entries added to `0.0`. -/
theorem total_apply (P : FVec Ideal S2x128x128 .f32) (i j : Fin 128) :
    total P (ix2 i j) = wZero + ∑ p : Fin 2, P (ix3 p i j) := by
  have h : S2x128x128.Reduces [(0 : Fin 3)] S128x128 := by decide
  simp only [total, Host.reduceAdd, Ideal.hostReduceAdd_def]
  rw [Ideal.hostReduceAdd_single reducesTo_S2x128x128_S128x128_d0 h]
  refine congrArg (wZero + ·) (Finset.sum_congr rfl fun p _ => congrArg P (funext fun a => Fin.ext ?_))
  rw [Shape.Reduces.lift_val]
  match a with
  | ⟨0, _⟩ => rfl
  | ⟨1, _⟩ => rfl
  | ⟨2, _⟩ => rfl

set_option maxHeartbeats 2000000 in
/-- The two widths as the host reads them after the kernel: the same scalars the reference computes. -/
theorem V_bx : (V m c main_v14 : S_.Idx → EReal)
    = Cert.ReferenceIdeal.Read.val_main_v14 (F := Ideal) (m ((c : Thread nD τ).loc main_arg1)) := by
  dsimp only [V, V0]
  simp only [hostOps0, List.flatten_cons, List.flatten_nil, List.append_nil, List.cons_append, List.nil_append]
  after_results_simp <;> rfl

set_option maxHeartbeats 2000000 in
theorem V_by : (V m c main_v19 : S_.Idx → EReal)
    = Cert.ReferenceIdeal.Read.val_main_v19 (F := Ideal) (m ((c : Thread nD τ).loc main_arg2)) := by
  dsimp only [V, V0]
  simp only [hostOps0, List.flatten_cons, List.flatten_nil, List.append_nil, List.cons_append, List.nil_append]
  after_results_simp <;> rfl

/-- With real inputs and nonzero widths the kernel's total IS the reference's unnormalised histogram: the sum over
    shards, steps and rows is the sum over points, and the pre-scaled weights are the quotient weights. -/
theorem total_eq
    (hx : ∀ a, ∃ r : ℝ, m ((c : Thread nD τ).loc main_arg0) a = (r : EReal))
    (hex : ∀ a, ∃ r : ℝ, m ((c : Thread nD τ).loc main_arg1) a = (r : EReal))
    (hey : ∀ a, ∃ r : ℝ, m ((c : Thread nD τ).loc main_arg2) a = (r : EReal))
    (hwx : width (m ((c : Thread nD τ).loc main_arg1)) ≠ 0) (hwy : width (m ((c : Thread nD τ).loc main_arg2)) ≠ 0) :
    total (parts m c) = Cert.ReferenceIdeal.Read.val_main_v46 (F := Ideal) (m ((c : Thread nD τ).loc main_arg0))
      (m ((c : Thread nD τ).loc main_arg1)) (m ((c : Thread nD τ).loc main_arg2)) := by
  refine funext fun (y : S128x128.Idx) => ?_
  obtain ⟨i, j, rfl⟩ : ∃ (i j : Fin 128), y = ix2 i j := ⟨y 0, y 1, eq_ix2 y⟩
  rw [total_apply, wZero_eq, zero_add, parts_sum, histS_eq_histQ _ _ _ hx hex hey hwx hwy]
  exact (Cert.Hist.Ref.hist _ _ _ i j).symm

/-- THE RESULT of the kernel program is the reference's result term of the same arguments. -/
theorem result_is_reference
    (hx : ∀ a, ∃ r : ℝ, m ((c : Thread nD τ).loc main_arg0) a = (r : EReal))
    (hex : ∀ a, ∃ r : ℝ, m ((c : Thread nD τ).loc main_arg1) a = (r : EReal))
    (hey : ∀ a, ∃ r : ℝ, m ((c : Thread nD τ).loc main_arg2) a = (r : EReal))
    (hwx : width (m ((c : Thread nD τ).loc main_arg1)) ≠ 0) (hwy : width (m ((c : Thread nD τ).loc main_arg2)) ≠ 0) :
    Pipeline.afterTail₀ cfgs (dats m) 0 (V0 m) [hostOps1] c main_v46
      = Cert.ReferenceIdeal.Read.val_main_v51 (F := Ideal) (m ((c : Thread nD τ).loc main_arg0))
          (m ((c : Thread nD τ).loc main_arg1)) (m ((c : Thread nD τ).loc main_arg2)) := by
  rw [result_eq, total_eq m c hx hex hey hwx hwy, V_bx, V_by]
  rfl

end Cert.KernelIdeal.HostOut

end
-- ==== Proof.lean ====
/-
  Kernel against reference: a joint Gaussian-kernel histogram of 500000 points over 128 × 128 bins, normalised to a
  density.

  Both programs weight coordinate `v` of a point against a bin of centre `c` by `exp (-1/2 · ((v - c) / b)²)`, `b` the
  width of the axis' first bin, sum over the points the product of the x weight and the y weight, and divide the
  resulting matrix `H` by `(Σ H) · bx · by`. They differ in three ways, none of which matters at exact arithmetic on
  real inputs with nonzero widths:
    • the reference divides `v - c` by `b`; the kernel program multiplies `v` and `c` by `1 / b` on the host before
      the launch and subtracts inside the kernel (`v·b⁻¹ - c·b⁻¹ = (v - c)·b⁻¹` for reals, `b ≠ 0`);
    • the reference contracts over all points at once; the kernel cuts them into 2 shards of 50 blocks of 5000 points,
      accumulates a shard's blocks in a scratch matrix across grid steps, writes each shard's matrix out at its last
      step, and the host adds the two (sums of extended reals re-associate and re-index freely);
    • the kernel rounds the weights to bf16 before the matrix product (the identity at exact arithmetic).
  The normalisation is the same operations on both sides, so it is never opened.

  The precondition: every input is finite, and on each axis the second edge differs from the first. With a zero
  width the reference itself divides by zero (and the two programs then give different junk), so the widths must be
  nonzero for the claim to hold at all.

  The frames of both kernel programs and the launch side are the generated ones; the reference's run and its stages
  read at an index are generated too. What is proved here: what each control case of the body leaves (Pieces), the
  body's arithmetic at a bin (Payload), the accumulator as a sum over a shard's steps (Accum), the host's values
  before the launch (HostIn), the blocks and the result array (Blocks), the host's normalisation after the kernel
  (HostOut), the reference's histogram (RefValue), the precondition decoded (PreFacts) and the two laws (Algebra,
  Sums).
-/
import proofs.«143320_j28252294873506_1_alg».proof.Defs
import proofs.«143320_j28252294873506_1_alg».proof.Proof.Gen.Kernel
import proofs.«143320_j28252294873506_1_alg».proof.Proof.Gen.Kernel.Skeleton
import proofs.«143320_j28252294873506_1_alg».proof.Proof.Gen.Kernel.Launch
import proofs.«143320_j28252294873506_1_alg».proof.Proof.Gen.Kernel.Points
import proofs.«143320_j28252294873506_1_alg».proof.Proof.Gen.Kernel.Frame
import proofs.«143320_j28252294873506_1_alg».proof.Proof.Gen.KernelIdeal
import proofs.«143320_j28252294873506_1_alg».proof.Proof.Gen.KernelIdeal.Skeleton
import proofs.«143320_j28252294873506_1_alg».proof.Proof.Gen.KernelIdeal.Launch
import proofs.«143320_j28252294873506_1_alg».proof.Proof.Gen.KernelIdeal.Points
import proofs.«143320_j28252294873506_1_alg».proof.Proof.Gen.KernelIdeal.Frame
import proofs.«143320_j28252294873506_1_alg».proof.Proof.Gen.ReferenceIdeal
import proofs.«143320_j28252294873506_1_alg».proof.Proof.Gen.ReferenceIdeal.Run
import proofs.«143320_j28252294873506_1_alg».proof.Proof.Gen.ReferenceIdeal.Read
import proofs.«143320_j28252294873506_1_alg».proof.Proof.Gen.Pre_finite_inputs
import proofs.«143320_j28252294873506_1_alg».proof.Proof.PreFacts
import proofs.«143320_j28252294873506_1_alg».proof.Proof.HostOut
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its generated run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At exact arithmetic both programs end with the reference's result term of the (agreeing) arguments: the kernel
    program's result array is that term once the inputs are real and the widths nonzero, which the precondition says. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v51 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Gen.run_main m ρ)
    obtain ⟨hx, hex, hey, hwx, hwy⟩ := Cert.Hist.Pre.of_pre _ _ _ (hpre c)
    exact ⟨((h c).2 Cert.KernelIdeal.main_v46 (Pipeline.mem_restRefs_of Cert.KernelIdeal.main_v46 (by decide) (by decide))).trans
        (Cert.KernelIdeal.HostOut.result_is_reference m c hx hex hey hwx hwy),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v51_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
